-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x40 : Shape := ⟨2, ![100000, 40]⟩
abbrev S10000x16 : Shape := ⟨2, ![10000, 16]⟩
abbrev S10000x40 : Shape := ⟨2, ![10000, 40]⟩
abbrev S3300000x40 : Shape := ⟨2, ![3300000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 86
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x40, .f32⟩
  | .hbm, ⟨80, _⟩ => ⟨S3300000x40, .f32⟩
  | .hbm, ⟨81, _⟩ => ⟨S_, .f32⟩
  | .hbm, ⟨82, _⟩ => ⟨S100000x40, .f32⟩
  | .hbm, ⟨83, _⟩ => ⟨S3300000x1, .i32⟩
  | .hbm, ⟨84, _⟩ => ⟨S100000x40, .f32⟩
  | .hbm, ⟨85, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S10000x16, .f32⟩
  | .local _ .vmem, ⟨6, _⟩ => ⟨S10000x16, .f32⟩
  | .local _ .vmem, ⟨7, _⟩ => ⟨S16x40, .f32⟩
  | .local _ .vmem, ⟨8, _⟩ => ⟨S10000x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S40, .f32⟩
  | .local _ .vmem, ⟨13, _⟩ => ⟨S10000x40, .f32⟩
  | .local _ .vmem, ⟨14, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  inb_S40_S40_0 : ∀ a, (![0] : Fin 1 → Nat) a + S40.size a ≤ S40.size a
  h_S40 : 0 < S40.numel
  shapeCasts_S40_S1x40 : S40.ShapeCasts S1x40
  shapeCasts_S1x40_S1x40 : S1x40.ShapeCasts S1x40
  broadcasts_S1x40_S10000x40 : S1x40.Broadcasts S10000x40
  shapeCasts_S10000x40_S10000x40 : S10000x40.ShapeCasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x40_S10000x40_1_0_0_1_n_n_wf : DotDims.WF S10000x16 S16x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x40.size a ≤ S100000x40.size a
  hwx1_2 : ∀ i : grid1.Coords, EltTy.bits .f32 = 32 ∨ (Rect.block (s := S100000x40) S10000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40.size a ≤ S40.size a
  hwx2_1 : ∀ i : grid2.Coords, EltTy.bits .f32 = 32 ∨ (Rect.block (s := S40) S40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x512, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The tiled program's run, with the final memory handed to the caller.

  Every weakly fair execution of the tiled program terminates without a fault, and in the final state every buffer
  that outlives the accelerator regions holds the contents of the last segment boundary of @main — the fold of the host
  stretches and of the three regions' write-backs over the launch memory. Any property of the final memory that follows
  from those contents is therefore a postcondition of the run. In particular the result buffer ends at the last region's
  output array and the six arguments end as launched.
-/
import proofs.«141435_j27247272526424_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends, nothing faulting, in a state whose long-lived buffers hold the last boundary's contents `W9`: whatever
    follows from that of the final memory is a postcondition. -/
theorem run_exit {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- The result buffer ends at the last boundary's contents, and the six arguments end as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_exit m ρ (fun s h c =>
    ⟨h c _ (mem_uc main_v61 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩)

end Cert.KernelIdeal.Result

end
-- ==== Proof.RefStages.lean ====
/-
  The reference network as a composition of named stages.

  A two-layer graph convolution followed by a row-wise log-softmax, on 100000 nodes with 3200000 directed edges:
  with Â = D^{-1/2} (A + I) D^{-1/2} the normalised adjacency (A from the edge list, I the self-loops, D the in-degree of
  A + I),
      result = logSoftmax ( Â · relu( Â · (x · W1) + b1 ) · W2  +  b2 ).
  Each stage below is a function of the arrays it reads, written with the host operations the reference program itself
  uses, so that the reference's result is this composition by unfolding definitions, while the tiled program is joined to
  it stage by stage: its two dense products and its last stage are computed block by block on the accelerator, and every
  other stage is the very same host operation. Nothing here depends on the numbers being finite: the two programs apply
  the same operations in the same order, and the only laws used are that a tiled matrix product is the matrix product, row
  by row, and that a row maximum and a row sum do not depend on how the row is cut out of its block.
-/
import proofs.«141435_j27247272526424_1_alg».proof.ReferenceIdeal
import proofs.«141435_j27247272526424_1_alg».proof.Proof.Gen.ReferenceIdeal

noncomputable section

namespace Cert.ReferenceIdeal.Stages

open Cert.ReferenceIdeal Cert.ReferenceIdeal.Gen Idealize.ShloMosaic Idealize.ShloMosaic.TcCoe

variable {F : FTy → Type} [FloatOps F]

/-! ## The graph: edge ends, degrees, edge weights -/

/-- The source node of every edge, followed by the nodes themselves (the self-loops). -/
def src (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target node of every edge, followed by the nodes themselves. -/
def dst (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative node number counts from the end: `x + 100000` where `x < 0`, else `x`. -/
def wrapped (x : (⟨S3300000, .i32⟩ : BufTy).Contents (Elt F)) : (⟨S3300000, .i32⟩ : BufTy).Contents (Elt F) :=
  select (cmpi .slt x (broadcastInDim S3300000 ![] bcast_S_S3300000 (constantI S_ 32 0#32))) (addi x (broadcastInDim S3300000 ![] bcast_S_S3300000 (constantI S_ 32 100000#32))) x

/-- The in-degree of every node in A + I: one added at the target of every edge and self-loop. -/
def degree (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (dst e)) (broadcastInDim S3300000 ![] bcast_S_S3300000 (constant S_ .f32 0x3F800000#32))

/-- `degree ^ (-1/2)` where the degree is positive, zero elsewhere. -/
def invSqrtDegree (e : (⟨S2x3200000, .i32⟩ : BufTy).Contents (Elt F)) : (⟨S100000, .f32⟩ : BufTy).Contents (Elt F) :=
  select (cmpf (F := F) .ogt (degree e) (broadcastInDim S100000 ![] bcast_S_S100000 (constant S_ .f32 0x00000000#32))) (Host.rsqrt (degree e)) (broadcastInDim S100000 ![] bcast_S_S100000 (id (constant S_ .f32 0x00000000#32)))

/-- The weight of every edge and self-loop: `invSqrtDegree` at its source times `invSqrtDegree` at its target. -/
def weight (e : (⟨S2x3200000, .i32⟩ : BufTy).Contents (Elt F)) : (⟨S3300000, .f32⟩ : BufTy).Contents (Elt F) :=
  mulf (Host.gather gather_S100000_S3300000x1_S3300000_n_0_n_n_0_1_1 (invSqrtDegree e) (broadcastInDim S3300000x1 ![0] bcast_S3300000_S3300000x1_0 (wrapped (src e)))) (Host.gather gather_S100000_S3300000x1_S3300000_n_0_n_n_0_1_1 (invSqrtDegree e) (broadcastInDim S3300000x1 ![0] bcast_S3300000_S3300000x1_0 (wrapped (dst e))))

/-! ## The first layer -/

/-- `x · W1`. -/
def dense1 (x : (⟨S100000x512, .f32⟩ : BufTy).Contents (Elt F)) (w : (⟨S512x16, .f32⟩ : BufTy).Contents (Elt F)) : (⟨S100000x16, .f32⟩ : BufTy).Contents (Elt F) :=
  Host.dotGeneral dot_S100000x512_S512x16_S100000x16_1_0_0_1_n_n none x w

/-- `Â · h` for 16 features: every edge carries its source's row, scaled by the edge's weight, to its target. -/
def aggregate16 (h : (⟨S100000x16, .f32⟩ : BufTy).Contents (Elt F)) (e : (⟨S2x3200000, .i32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (dst e)) (mulf (Host.gather gather_S100000x16_S3300000x1_S3300000x16_1_0_n_n_0_1_116 h (broadcastInDim S3300000x1 ![0] bcast_S3300000_S3300000x1_0 (wrapped (src e)))) (broadcastInDim S3300000x16 ![0, 1] bcast_S3300000x1_S3300000x16_0_1 (broadcastInDim S3300000x1 ![0] bcast_S3300000_S3300000x1_0 (weight e))))

/-- `relu (Â · h + b1)`. -/
def hidden (h : (⟨S100000x16, .f32⟩ : BufTy).Contents (Elt F)) (e : (⟨S2x3200000, .i32⟩ : BufTy).Contents (Elt F)) (b : (⟨S16, .f32⟩ : BufTy).Contents (Elt F)) : (⟨S100000x16, .f32⟩ : BufTy).Contents (Elt F) :=
  maximumf (addf (aggregate16 h e) (broadcastInDim S100000x16 ![0, 1] bcast_S1x16_S100000x16_0_1 (broadcastInDim S1x16 ![1] bcast_S16_S1x16_1 b))) (broadcastInDim S100000x16 ![] bcast_S_S100000x16 (constant S_ .f32 0x00000000#32))

/-! ## The second layer -/

/-- `h · W2`. -/
def dense2 (h : (⟨S100000x16, .f32⟩ : BufTy).Contents (Elt F)) (w : (⟨S16x40, .f32⟩ : BufTy).Contents (Elt F)) : (⟨S100000x40, .f32⟩ : BufTy).Contents (Elt F) :=
  Host.dotGeneral dot_S100000x16_S16x40_S100000x40_1_0_0_1_n_n none h w

/-- `Â · g` for 40 features. -/
def aggregate40 (g : (⟨S100000x40, .f32⟩ : BufTy).Contents (Elt F)) (e : (⟨S2x3200000, .i32⟩ : BufTy).Contents (Elt F)) : (⟨S100000x40, .f32⟩ : BufTy).Contents (Elt F) :=
  Host.scatterAdd scatter_S100000x40_S3300000x1_S3300000x40_1_0_0_1 (broadcastInDim S100000x40 ![] bcast_S_S100000x40 (constant S_ .f32 0x00000000#32)) (broadcastInDim S3300000x1 ![0] bcast_S3300000_S3300000x1_0 (dst e)) (mulf (Host.gather gather_S100000x40_S3300000x1_S3300000x40_1_0_n_n_0_1_140 g (broadcastInDim S3300000x1 ![0] bcast_S3300000_S3300000x1_0 (wrapped (src e)))) (broadcastInDim S3300000x40 ![0, 1] bcast_S3300000x1_S3300000x40_0_1 (broadcastInDim S3300000x1 ![0] bcast_S3300000_S3300000x1_0 (weight e))))

/-- `z + b2`, the bias added to every row. -/
def biased (z : (⟨S100000x40, .f32⟩ : BufTy).Contents (Elt F)) (b : (⟨S40, .f32⟩ : BufTy).Contents (Elt F)) : (⟨S100000x40, .f32⟩ : BufTy).Contents (Elt F) :=
  addf z (broadcastInDim S100000x40 ![0, 1] bcast_S1x40_S100000x40_0_1 (broadcastInDim S1x40 ![1] bcast_S40_S1x40_1 b))

/-! ## The row-wise log-softmax -/

/-- The maximum of every row, started from −∞ (and once more compared with −∞). -/
def rowMax (v : (⟨S100000x40, .f32⟩ : BufTy).Contents (Elt F)) : (⟨S100000, .f32⟩ : BufTy).Contents (Elt F) :=
  maximumf (broadcastInDim S100000 ![] bcast_S_S100000 (constant S_ .f32 0xFF800000#32)) (Host.reduce FloatOps.maximumf v (constant S_ .f32 0xFF800000#32) reducesTo_S100000x40_S100000_d1 h_S_)

/-- Every entry less its row's maximum. -/
def shifted (v : (⟨S100000x40, .f32⟩ : BufTy).Contents (Elt F)) : (⟨S100000x40, .f32⟩ : BufTy).Contents (Elt F) :=
  subf v (broadcastInDim S100000x40 ![0, 1] bcast_S100000x1_S100000x40_0_1 (broadcastInDim S100000x1 ![0] bcast_S100000_S100000x1_0 (rowMax v)))

/-- `shifted v − log (row sum of exp (shifted v))`. -/
def logSoftmax (v : (⟨S100000x40, .f32⟩ : BufTy).Contents (Elt F)) : (⟨S100000x40, .f32⟩ : BufTy).Contents (Elt F) :=
  subf (shifted v) (broadcastInDim S100000x40 ![0, 1] bcast_S100000x1_S100000x40_0_1 (Host.log (broadcastInDim S100000x1 ![0] bcast_S100000_S100000x1_0 (Host.reduceAdd (Host.exp (shifted v)) (constant S_ .f32 0x00000000#32) reducesTo_S100000x40_S100000_d1 h_S_))))

/-! ## The whole network -/

/-- The reference's result as a function of its six arguments. -/
def network (x : (⟨S100000x512, .f32⟩ : BufTy).Contents (Elt F)) (e : (⟨S2x3200000, .i32⟩ : BufTy).Contents (Elt F)) (w1 : (⟨S512x16, .f32⟩ : BufTy).Contents (Elt F)) (b1 : (⟨S16, .f32⟩ : BufTy).Contents (Elt F))
    (w2 : (⟨S16x40, .f32⟩ : BufTy).Contents (Elt F)) (b2 : (⟨S40, .f32⟩ : BufTy).Contents (Elt F)) : (⟨S100000x40, .f32⟩ : BufTy).Contents (Elt F) :=
  logSoftmax (biased (aggregate40 (dense2 (hidden (dense1 x w1) e b1) w2) e) b2)

end Cert.ReferenceIdeal.Stages

end
-- ==== Proof.EdgeStages.lean ====
/-
  The aggregation stages as functions of the edge arrays.

  The tiled program computes the source list, the target list and the column of edge weights once and keeps them;
  both aggregations then read those three arrays. Here each aggregation stage is written as a function of the three
  arrays, and the stages of the reference — which recompute them from the edge list — are these functions at
  `src e`, `dst e` and the column of `weight e`, by unfolding definitions.
-/
import proofs.«141435_j27247272526424_1_alg».proof.Proof.RefStages

noncomputable section

namespace Cert.ReferenceIdeal.Stages

open Cert.ReferenceIdeal Cert.ReferenceIdeal.Gen Idealize.ShloMosaic Idealize.ShloMosaic.TcCoe

variable {F : FTy → Type} [FloatOps F]

/-- The edge weights as a column [3300000, 1]. -/
def weightColumn (e : (⟨S2x3200000, .i32⟩ : BufTy).Contents (Elt F)) : (⟨S3300000x1, .f32⟩ : BufTy).Contents (Elt F) :=
  broadcastInDim S3300000x1 ![0] bcast_S3300000_S3300000x1_0 (weight e)

/-- `Â · h` for 16 features from the source list `s`, the target list `d` and the weight column `wc`: every edge
    carries its source's row, scaled by its weight, to its target. -/
def edgeSum16 (h : (⟨S100000x16, .f32⟩ : BufTy).Contents (Elt F)) (s d : (⟨S3300000, .i32⟩ : BufTy).Contents (Elt F))
    (wc : (⟨S3300000x1, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 d) (mulf (Host.gather gather_S100000x16_S3300000x1_S3300000x16_1_0_n_n_0_1_116 h (broadcastInDim S3300000x1 ![0] bcast_S3300000_S3300000x1_0 (wrapped s))) (broadcastInDim S3300000x16 ![0, 1] bcast_S3300000x1_S3300000x16_0_1 wc))

/-- `relu (edgeSum16 h s d wc + b)`. -/
def hiddenOf (h : (⟨S100000x16, .f32⟩ : BufTy).Contents (Elt F)) (s d : (⟨S3300000, .i32⟩ : BufTy).Contents (Elt F))
    (wc : (⟨S3300000x1, .f32⟩ : BufTy).Contents (Elt F)) (b : (⟨S16, .f32⟩ : BufTy).Contents (Elt F)) :
    (⟨S100000x16, .f32⟩ : BufTy).Contents (Elt F) :=
  maximumf (addf (edgeSum16 h s d wc) (broadcastInDim S100000x16 ![0, 1] bcast_S1x16_S100000x16_0_1 (broadcastInDim S1x16 ![1] bcast_S16_S1x16_1 b))) (broadcastInDim S100000x16 ![] bcast_S_S100000x16 (constant S_ .f32 0x00000000#32))

/-- `Â · g` for 40 features from the three edge arrays. -/
def edgeSum40 (g : (⟨S100000x40, .f32⟩ : BufTy).Contents (Elt F)) (s d : (⟨S3300000, .i32⟩ : BufTy).Contents (Elt F))
    (wc : (⟨S3300000x1, .f32⟩ : BufTy).Contents (Elt F)) : (⟨S100000x40, .f32⟩ : BufTy).Contents (Elt F) :=
  Host.scatterAdd scatter_S100000x40_S3300000x1_S3300000x40_1_0_0_1 (broadcastInDim S100000x40 ![] bcast_S_S100000x40 (constant S_ .f32 0x00000000#32)) (broadcastInDim S3300000x1 ![0] bcast_S3300000_S3300000x1_0 d) (mulf (Host.gather gather_S100000x40_S3300000x1_S3300000x40_1_0_n_n_0_1_140 g (broadcastInDim S3300000x1 ![0] bcast_S3300000_S3300000x1_0 (wrapped s))) (broadcastInDim S3300000x40 ![0, 1] bcast_S3300000x1_S3300000x40_0_1 wc))

/-- The reference's first aggregation is the edge sum at its own edge arrays. -/
theorem aggregate16_eq (h : (⟨S100000x16, .f32⟩ : BufTy).Contents (Elt F)) (e : (⟨S2x3200000, .i32⟩ : BufTy).Contents (Elt F)) :
    aggregate16 h e = edgeSum16 h (src e) (dst e) (weightColumn e) := rfl

/-- The reference's hidden layer is `hiddenOf` at its own edge arrays. -/
theorem hidden_eq (h : (⟨S100000x16, .f32⟩ : BufTy).Contents (Elt F)) (e : (⟨S2x3200000, .i32⟩ : BufTy).Contents (Elt F))
    (b : (⟨S16, .f32⟩ : BufTy).Contents (Elt F)) :
    hidden h e b = hiddenOf h (src e) (dst e) (weightColumn e) b := rfl

/-- The reference's second aggregation is the edge sum at its own edge arrays. -/
theorem aggregate40_eq (g : (⟨S100000x40, .f32⟩ : BufTy).Contents (Elt F)) (e : (⟨S2x3200000, .i32⟩ : BufTy).Contents (Elt F)) :
    aggregate40 g e = edgeSum40 g (src e) (dst e) (weightColumn e) := rfl

end Cert.ReferenceIdeal.Stages

end
-- ==== Proof.KernelHost.lean ====
/-
  The host stretches of the tiled program.

  Between the launch and the first accelerator region the tiled program computes, on the host, the source list, the
  target list and the column of edge weights; between the first and the second region the hidden layer from the first
  dense product; between the second and the third region the second aggregation from the second dense product. Each of
  these is the corresponding stage function of the contents found at the segment boundary before it; a buffer that a
  stretch or a region does not write keeps its contents across it.
-/
import proofs.«141435_j27247272526424_1_alg».proof.Proof.Gen.KernelIdeal.Frame
import proofs.«141435_j27247272526424_1_alg».proof.Proof.EdgeStages
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Cert.ReferenceIdeal (Stages.src Stages.dst Stages.weightColumn Stages.hiddenOf Stages.edgeSum40)

variable {F : FTy → Type} [FloatOps F]
variable (m : (ℓ : Loc nD τ sig) → Buf (Elt F) ℓ) (ρ : Dev nD → PrngReg) (c : Dev nD)

/-! ## Before the first region -/

/-- The source list, as the first region finds it. -/
theorem src_at : W3 m ρ c (Proc.devRef .tc main_v3) = Cert.ReferenceIdeal.Stages.src (m ((c.tc : Thread nD τ).loc main_arg1)) := by
  dsimp only [W3, W2, W1, W0, hostOps0, hostOps0_1, hostOps0_2]
  after_results
  rfl

/-- The target list, as the first region finds it. -/
theorem dst_at : W3 m ρ c (Proc.devRef .tc main_v6) = Cert.ReferenceIdeal.Stages.dst (m ((c.tc : Thread nD τ).loc main_arg1)) := by
  dsimp only [W3, W2, W1, W0, hostOps0, hostOps0_1, hostOps0_2]
  after_results
  rfl

set_option maxHeartbeats 16000000 in
/-- The column of edge weights, as the first region finds it. -/
theorem weight_at : W3 m ρ c (Proc.devRef .tc main_v30) = Cert.ReferenceIdeal.Stages.weightColumn (m ((c.tc : Thread nD τ).loc main_arg1)) := by
  dsimp only [W3, W2, W1, W0, hostOps0, hostOps0_1, hostOps0_2]
  after_results_simp
  simp only [cast_eq]
  rfl

set_option maxHeartbeats 16000000 in
/-- An argument array is as launched when the first region is entered. -/
theorem arg_at_W3 (b : Ref sig .tc) (hb : b = main_arg0 ∨ b = main_arg2 ∨ b = main_arg3 ∨ b = main_arg4 ∨ b = main_arg5) :
    W3 m ρ c (Proc.devRef .tc b) = m ((c.tc : Thread nD τ).loc b) := by
  rcases hb with rfl | rfl | rfl | rfl | rfl <;>
  · dsimp only [W3, W2, W1, W0, hostOps0, hostOps0_1, hostOps0_2]
    after_results_simp <;> rfl

/-! ## Between the first and the second region -/

set_option maxHeartbeats 16000000 in
/-- The hidden layer, as the second region finds it: the stage function of what the first region left. -/
theorem hidden_at : W6 m ρ c (Proc.devRef .tc main_v47)
    = Cert.ReferenceIdeal.Stages.hiddenOf (W4 m ρ c (Proc.devRef .tc main_v31)) (W4 m ρ c (Proc.devRef .tc main_v3))
        (W4 m ρ c (Proc.devRef .tc main_v6)) (W4 m ρ c (Proc.devRef .tc main_v30)) (W4 m ρ c (Proc.devRef .tc main_arg3)) := by
  dsimp only [W6, W5, hostOps1, hostOps1_1]
  after_results_simp
  simp only [cast_eq]
  rfl

/-- The second host stretch leaves the edge arrays and the later arguments alone. -/
theorem keep_W6 (b : Ref sig .tc) (hb : b = main_v3 ∨ b = main_v6 ∨ b = main_v30 ∨ b = main_arg4 ∨ b = main_arg5) :
    W6 m ρ c (Proc.devRef .tc b) = W4 m ρ c (Proc.devRef .tc b) := by
  rcases hb with rfl | rfl | rfl | rfl | rfl <;>
  · dsimp only [W6, W5, hostOps1, hostOps1_1]
    after_results

/-! ## Between the second and the third region -/

set_option maxHeartbeats 16000000 in
/-- The second aggregation, as the third region finds it: the stage function of what the second region left. -/
theorem logits_at : W8 m ρ c (Proc.devRef .tc main_v60)
    = Cert.ReferenceIdeal.Stages.edgeSum40 (W7 m ρ c (Proc.devRef .tc main_v48)) (W7 m ρ c (Proc.devRef .tc main_v3))
        (W7 m ρ c (Proc.devRef .tc main_v6)) (W7 m ρ c (Proc.devRef .tc main_v30)) := by
  dsimp only [W8, hostOps2]
  after_results_simp
  rfl

/-- The third host stretch leaves the last bias alone. -/
theorem keep_W8 : W8 m ρ c (Proc.devRef .tc main_arg5) = W7 m ρ c (Proc.devRef .tc main_arg5) := by
  dsimp only [W8, hostOps2]
  after_results

end Cert.KernelIdeal.Host

end
-- ==== Proof.DenseRegion0.lean ====
/- The first dense layer, x · W1, computed in 25 blocks of 4000 rows.

   Each grid point t reads rows 4000 t … 4000 t + 3999 of x (a 4000 × 512 block) and the whole 512 × 16 weight
   matrix, and writes the 4000 × 16 block of their product back to the same rows of the result. On the extended
   reals the body's value at entry (p, q) of a block is the sum over k of block(p, k) · W1(k, q), with no rounding
   and a zero accumulator. Since row 4000 t + p of x is row p of block t, every block is the corresponding block
   of ONE function of the two arrays, `prod1`: entry (r, j) is the sum over k of x(r, k) · W1(k, j). The 25 blocks
   cover all 100000 rows (row r lies in block r / 4000), so after the region the result array IS `prod1`. -/
import proofs.«141435_j27247272526424_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Dense

open Cert.KernelIdeal Cert.KernelIdeal.Gen Idealize.ShloMosaic Idealize.ShloMosaic.TcCoe Idealize.SL.Sem
open Idealize.ShloMosaic.Pipeline (Dat)

/-! ## The product, entry by entry -/

abbrev lix1 (i : S100000x16.Idx) (k : Fin 512) : S100000x512.Idx := fun a => match a with
  | ⟨0, _⟩ => ⟨(i 0).val, (i 0).isLt⟩
  | ⟨1, _⟩ => ⟨k.val, k.isLt⟩
abbrev rix1 (i : S100000x16.Idx) (k : Fin 512) : S512x16.Idx := fun a => match a with
  | ⟨0, _⟩ => ⟨k.val, k.isLt⟩
  | ⟨1, _⟩ => ⟨(i 1).val, (i 1).isLt⟩
/-- entry (r, j) of x · w -/
def prod1 (x : S100000x512.Idx → EReal) (w : S512x16.Idx → EReal) : S100000x16.Idx → EReal :=
  fun i => ∑ k : Fin 512, x (lix1 i k) * w (rix1 i k)

/-! ## The body's value at an entry of a block -/

/-- Inside one 4000-row block: the left operand's index for the block's entry `y` = (p, q) and contraction
    coordinate `k`, that is (p, k). -/
abbrev bl0 (y : S4000x16.Idx) (k : Fin 512) : S4000x512.Idx := fun a => match a with
  | ⟨0, _⟩ => ⟨(y 0).val, (y 0).isLt⟩
  | ⟨1, _⟩ => ⟨k.val, k.isLt⟩
/-- The right operand's index for the same entry and coordinate: (k, q). -/
abbrev br0 (y : S4000x16.Idx) (k : Fin 512) : S512x16.Idx := fun a => match a with
  | ⟨0, _⟩ => ⟨k.val, k.isLt⟩
  | ⟨1, _⟩ => ⟨(y 1).val, (y 1).isLt⟩

/-- The product's dimension numbers contract axis 1 of the left operand with axis 0 of the right: the left operand
    is read at (row of the entry, contraction coordinate), -/
theorem lhs0_0 (y : S4000x16.Idx) (q : dot_S4000x512_S512x16_S4000x16_1_0_0_1_n_n.contr.Idx) :
    (dot_S4000x512_S512x16_S4000x16_1_0_0_1_n_n.lhsIdx y q 0).val = (y 0).val := by
  unfold DotDims.lhsIdx
  rw [dif_neg (show ¬(0 : Fin S4000x512.rank) ∈ dot_S4000x512_S512x16_S4000x16_1_0_0_1_n_n.lhsBatch by decide), dif_pos (show (0 : Fin S4000x512.rank) ∈ dot_S4000x512_S512x16_S4000x16_1_0_0_1_n_n.lhsNonContracting by decide)]
  rfl
theorem lhs0_1 (y : S4000x16.Idx) (q : dot_S4000x512_S512x16_S4000x16_1_0_0_1_n_n.contr.Idx) :
    (dot_S4000x512_S512x16_S4000x16_1_0_0_1_n_n.lhsIdx y q 1).val = (q ⟨0, by decide⟩).val :=
  dot_S4000x512_S512x16_S4000x16_1_0_0_1_n_n.lhsIdx_val_of_single rfl y q
/-- and the right operand at (contraction coordinate, column of the entry). -/
theorem rhs0_0 (y : S4000x16.Idx) (q : dot_S4000x512_S512x16_S4000x16_1_0_0_1_n_n.contr.Idx) :
    (dot_S4000x512_S512x16_S4000x16_1_0_0_1_n_n.rhsIdx y q 0).val = (q ⟨0, by decide⟩).val :=
  dot_S4000x512_S512x16_S4000x16_1_0_0_1_n_n.rhsIdx_val_of_single rfl y q
theorem rhs0_1 (y : S4000x16.Idx) (q : dot_S4000x512_S512x16_S4000x16_1_0_0_1_n_n.contr.Idx) :
    (dot_S4000x512_S512x16_S4000x16_1_0_0_1_n_n.rhsIdx y q 1).val = (y 1).val := by
  unfold DotDims.rhsIdx
  rw [dif_neg (show ¬(1 : Fin S512x16.rank) ∈ dot_S4000x512_S512x16_S4000x16_1_0_0_1_n_n.rhsBatch by decide), dif_pos (show (1 : Fin S512x16.rank) ∈ dot_S4000x512_S512x16_S4000x16_1_0_0_1_n_n.rhsNonContracting by decide)]
  rfl

/-- The body's stored value at entry `y` of the block: on the extended reals the change of float format is the
    identity and the product into a zero accumulator is the exact sum over the contraction axis, re-indexed from the
    one-axis contraction shape to `Fin 512`. -/
theorem pay0_apply (v0 : Vec Ideal S4000x512 .f32) (v2 : Vec Ideal S512x16 .f32) (y : S4000x16.Idx) :
    k0_pay1 (F := Ideal) v0 v2 y = ∑ k : Fin 512, v0 (bl0 y k) * v2 (br0 y k) := by
  unfold k0_pay1
  refine (Ideal.matmul_constant_zero_apply dot_S4000x512_S512x16_S4000x16_1_0_0_1_n_n none _ _ _).trans ?_
  rw [← Equiv.sum_comp (ValueIdx.contrEquiv1 dot_S4000x512_S512x16_S4000x16_1_0_0_1_n_n 512 rfl rfl).symm]
  refine Finset.sum_congr rfl fun k _ => ?_
  have hk := ValueIdx.contrEquiv1_symm_val dot_S4000x512_S512x16_S4000x16_1_0_0_1_n_n 512 rfl rfl k
  have el : dot_S4000x512_S512x16_S4000x16_1_0_0_1_n_n.lhsIdx y ((ValueIdx.contrEquiv1 dot_S4000x512_S512x16_S4000x16_1_0_0_1_n_n 512 rfl rfl).symm k) = bl0 y k := funext fun a => Fin.ext (by
    match a with
    | ⟨0, _⟩ => exact lhs0_0 _ _
    | ⟨1, _⟩ => exact (lhs0_1 _ _).trans hk)
  have er : dot_S4000x512_S512x16_S4000x16_1_0_0_1_n_n.rhsIdx y ((ValueIdx.contrEquiv1 dot_S4000x512_S512x16_S4000x16_1_0_0_1_n_n 512 rfl rfl).symm k) = br0 y k := funext fun a => Fin.ext (by
    match a with
    | ⟨0, _⟩ => exact (rhs0_0 _ _).trans hk
    | ⟨1, _⟩ => exact rhs0_1 _ _)
  show v0 (dot_S4000x512_S512x16_S4000x16_1_0_0_1_n_n.lhsIdx y _) * v2 (dot_S4000x512_S512x16_S4000x16_1_0_0_1_n_n.rhsIdx y _) = _
  rw [el, er]

/-- One entry: if the block's operands, at the places entry `y` reads, are the arrays `A` and `B` at the places
    entry `i` of the product reads, then the body's value at `y` is the product's entry `i`. -/
theorem point0 (x0 : Vec Ideal S4000x512 .f32) (x1 : Vec Ideal S512x16 .f32)
    (A : S100000x512.Idx → EReal) (B : S512x16.Idx → EReal) (y : S4000x16.Idx) (i : S100000x16.Idx)
    (hA : ∀ k, x0 (bl0 y k) = A (lix1 i k)) (hB : ∀ k, x1 (br0 y k) = B (rix1 i k)) :
    k0_pay1 (F := Ideal) x0 x1 y = prod1 A B i := by
  rw [pay0_apply]
  exact Finset.sum_congr rfl fun k _ => by rw [hA, hB]

/-! ## The blocks the body reads -/

variable (V : (c : Dev nD) → (b : Ref sig .tc) → Buf (Elt Ideal) ((c : Thread nD τ).loc b))

theorem zoff0 : (![0, 0] : Fin 2 → Nat) = fun _ => 0 := funext fun a => by fin_cases a <;> rfl

/-- The block index of each window at grid point `t`, decided over the 25 points: the two row windows (the left
    operand and the result) sit at block (t, 0), the weight window at block (0, 0) always. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows 4000 t … of the array: its entry `x` is the array's entry `i`
    whenever `i` = (4000 t + row of x, column of x). -/
theorem iblk0_0_apply (c : Dev nD) (t : Fin cfg0.N) (x : S4000x512.Idx) (i : S100000x512.Idx)
    (h0 : (i 0).val = 4000 * t.val + (x 0).val) (h1 : (i 1).val = (x 1).val) :
    (iblk0 V c 0 t : Vec Ideal S4000x512 .f32) x = (V c main_arg0 : S100000x512.Idx → EReal) i := by
  obtain ⟨e0, e1, -, -, -, -⟩ := idx_facts0 t
  unfold iblk0
  rw [View.read_apply]
  show V c main_arg0 _ = V c main_arg0 _
  refine congrArg _ ?_
  funext a
  apply Fin.ext
  match a with
  | ⟨0, _⟩ => show win0_0.index t (0 : Fin 2) * 4000 + 1 * (x 0).val = (i 0).val; rw [e0, h0]; omega
  | ⟨1, _⟩ => show win0_0.index t (1 : Fin 2) * 512 + 1 * (x 1).val = (i 1).val; rw [e1, h1]; omega

/-- The weight window's block at every point is the whole weight array. -/
theorem iblk0_1_apply (c : Dev nD) (t : Fin cfg0.N) (x i : S512x16.Idx)
    (h0 : (i 0).val = (x 0).val) (h1 : (i 1).val = (x 1).val) :
    (iblk0 V c 1 t : Vec Ideal S512x16 .f32) x = (V c main_arg2 : S512x16.Idx → EReal) i := by
  obtain ⟨-, -, e2, e3, -, -⟩ := idx_facts0 t
  unfold iblk0
  rw [View.read_apply]
  show V c main_arg2 _ = V c main_arg2 _
  refine congrArg _ ?_
  funext a
  apply Fin.ext
  match a with
  | ⟨0, _⟩ => show win0_1.index t (0 : Fin 2) * 512 + 1 * (x 0).val = (i 0).val; rw [e2, h0]; omega
  | ⟨1, _⟩ => show win0_1.index t (1 : Fin 2) * 16 + 1 * (x 1).val = (i 1).val; rw [e3, h1]; omega

/-! ## From the blocks to the array -/

/-- What point `t` writes back is block `t` of the product of the two arrays: the body loads and stores its whole
    staging buffers, entry `j` of the result block is entry (4000 t + row of j, column of j) of the array, and the
    operand blocks are read at the matching rows. -/
theorem flushed0_eq (c : Dev nD) (t : Fin cfg0.N) :
    (dat0 (F := Ideal) V c).flushed 2 t
      = ((cfg0.win 2).blk t).view.read (Elt Ideal) (prod1 (V c main_arg0) (V c main_arg2)) := by
  show (cfg0.win 2).cut (grid0.coords t) ((dat0 V c).after 2 t) = _
  rw [after0_2]
  unfold out0_2
  rw [View.canon_unit_zero zoff0]
  simp only [View.ld_unit_zero (S := S4000x512) zoff0, View.ld_unit_zero (S := S512x16) zoff0]
  obtain ⟨-, -, -, -, e4, e5⟩ := idx_facts0 t
  funext j
  have hi0 : ((((cfg0.win 2).blk t).view.emb j) 0).val = 4000 * t.val + (j 0).val := by
    show win0_2.index t (0 : Fin 2) * 4000 + 1 * (j 0).val = _; rw [e4]; omega
  have hi1 : ((((cfg0.win 2).blk t).view.emb j) 1).val = (j 1).val := by
    show win0_2.index t (1 : Fin 2) * 16 + 1 * (j 1).val = _; rw [e5]; omega
  refine point0 (iblk0 V c 0 t) (iblk0 V c 1 t) (V c main_arg0) (V c main_arg2)
    ((win0 2).xinj (grid0.coords t) j) (((cfg0.win 2).blk t).view.emb j) (fun k => ?_) (fun k => ?_)
  · exact iblk0_0_apply V c t _ _ hi0 rfl
  · exact iblk0_1_apply V c t _ _ rfl hi1

/-- An index of the result array lies in point `t`'s block iff each coordinate lies in the block's range on its axis. -/
theorem mem_blk0 (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v31).slice (win0_2.rect t)).set ↔ _
  rw [View.set_slice_whole, Rect.mem_set_unit]
  exact Iff.rfl

/-- Row `r` lies in the block of point `r / 4000`: the 25 blocks of 4000 rows cover the 100000 rows, and every
    point writes its block back. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 25 := N_0
  obtain ⟨t, ht⟩ : ∃ t : Fin cfg0.N, t.val = (i 0).val / 4000 := ⟨⟨(i 0).val / 4000, by show _ < grid0.N; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; rw [e4, ht]; omega
  | ⟨1, _⟩ => show win0_2.index t (1 : Fin 2) * 16 ≤ (i 1).val ∧ (i 1).val < win0_2.index t (1 : Fin 2) * 16 + 16; rw [e5]; omega

/-- After the region its result array is the product of the left operand and the weights, entry by entry. -/
theorem region0_eq (c : Dev nD) :
    (Cert.KernelIdeal.Gen.dat0 (F := Ideal) V c).arrAt 2 cfg0.N = prod1 (V c main_arg0) (V c main_arg2) :=
  (dat0 (F := Ideal) V c).arrAt_eq_of_cover 2 (prod1 (V c main_arg0) (V c main_arg2)) (fun t _ => flushed0_eq V c t) cover0

end Cert.KernelIdeal.Dense

end
-- ==== Proof.DenseRegion1.lean ====
/- The second dense layer, h · W2, computed in 10 blocks of 10000 rows.

   Each grid point t reads rows 10000 t … 10000 t + 9999 of h (a 10000 × 16 block) and the whole 16 × 40 weight
   matrix, and writes the 10000 × 40 block of their product back to the same rows of the result. On the extended
   reals the body's value at entry (p, q) of a block is the sum over k of block(p, k) · W2(k, q): the reshape of a
   block to its own shape and the change of float format are the identity, and the accumulator starts at zero.
   Since row 10000 t + p of h is row p of block t, every block is the corresponding block of ONE function of the
   two arrays, `prod2`: entry (r, j) is the sum over k of h(r, k) · W2(k, j). The 10 blocks cover all 100000 rows
   (row r lies in block r / 10000), so after the region the result array IS `prod2`. -/
import proofs.«141435_j27247272526424_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Dense

open Cert.KernelIdeal Cert.KernelIdeal.Gen Idealize.ShloMosaic Idealize.ShloMosaic.TcCoe Idealize.SL.Sem
open Idealize.ShloMosaic.Pipeline (Dat)

/-! ## The product, entry by entry -/

abbrev lix2 (i : S100000x40.Idx) (k : Fin 16) : S100000x16.Idx := fun a => match a with
  | ⟨0, _⟩ => ⟨(i 0).val, (i 0).isLt⟩
  | ⟨1, _⟩ => ⟨k.val, k.isLt⟩
abbrev rix2 (i : S100000x40.Idx) (k : Fin 16) : S16x40.Idx := fun a => match a with
  | ⟨0, _⟩ => ⟨k.val, k.isLt⟩
  | ⟨1, _⟩ => ⟨(i 1).val, (i 1).isLt⟩
/-- entry (r, j) of x · w -/
def prod2 (x : S100000x16.Idx → EReal) (w : S16x40.Idx → EReal) : S100000x40.Idx → EReal :=
  fun i => ∑ k : Fin 16, x (lix2 i k) * w (rix2 i k)

/-! ## The body's value at an entry of a block -/

/-- Inside one 10000-row block: the left operand's index for the block's entry `y` = (p, q) and contraction
    coordinate `k`, that is (p, k). -/
abbrev bl1 (y : S10000x40.Idx) (k : Fin 16) : S10000x16.Idx := fun a => match a with
  | ⟨0, _⟩ => ⟨(y 0).val, (y 0).isLt⟩
  | ⟨1, _⟩ => ⟨k.val, k.isLt⟩
/-- The right operand's index for the same entry and coordinate: (k, q). -/
abbrev br1 (y : S10000x40.Idx) (k : Fin 16) : S16x40.Idx := fun a => match a with
  | ⟨0, _⟩ => ⟨k.val, k.isLt⟩
  | ⟨1, _⟩ => ⟨(y 1).val, (y 1).isLt⟩

/-- The product's dimension numbers contract axis 1 of the left operand with axis 0 of the right: the left operand
    is read at (row of the entry, contraction coordinate), -/
theorem lhs1_0 (y : S10000x40.Idx) (q : dot_S10000x16_S16x40_S10000x40_1_0_0_1_n_n.contr.Idx) :
    (dot_S10000x16_S16x40_S10000x40_1_0_0_1_n_n.lhsIdx y q 0).val = (y 0).val := by
  unfold DotDims.lhsIdx
  rw [dif_neg (show ¬(0 : Fin S10000x16.rank) ∈ dot_S10000x16_S16x40_S10000x40_1_0_0_1_n_n.lhsBatch by decide), dif_pos (show (0 : Fin S10000x16.rank) ∈ dot_S10000x16_S16x40_S10000x40_1_0_0_1_n_n.lhsNonContracting by decide)]
  rfl
theorem lhs1_1 (y : S10000x40.Idx) (q : dot_S10000x16_S16x40_S10000x40_1_0_0_1_n_n.contr.Idx) :
    (dot_S10000x16_S16x40_S10000x40_1_0_0_1_n_n.lhsIdx y q 1).val = (q ⟨0, by decide⟩).val :=
  dot_S10000x16_S16x40_S10000x40_1_0_0_1_n_n.lhsIdx_val_of_single rfl y q
/-- and the right operand at (contraction coordinate, column of the entry). -/
theorem rhs1_0 (y : S10000x40.Idx) (q : dot_S10000x16_S16x40_S10000x40_1_0_0_1_n_n.contr.Idx) :
    (dot_S10000x16_S16x40_S10000x40_1_0_0_1_n_n.rhsIdx y q 0).val = (q ⟨0, by decide⟩).val :=
  dot_S10000x16_S16x40_S10000x40_1_0_0_1_n_n.rhsIdx_val_of_single rfl y q
theorem rhs1_1 (y : S10000x40.Idx) (q : dot_S10000x16_S16x40_S10000x40_1_0_0_1_n_n.contr.Idx) :
    (dot_S10000x16_S16x40_S10000x40_1_0_0_1_n_n.rhsIdx y q 1).val = (y 1).val := by
  unfold DotDims.rhsIdx
  rw [dif_neg (show ¬(1 : Fin S16x40.rank) ∈ dot_S10000x16_S16x40_S10000x40_1_0_0_1_n_n.rhsBatch by decide), dif_pos (show (1 : Fin S16x40.rank) ∈ dot_S10000x16_S16x40_S10000x40_1_0_0_1_n_n.rhsNonContracting by decide)]
  rfl

/-- The body's stored value at entry `y` of the block: on the extended reals the reshape of the block to its own
    shape and the change of float format are the identity, and the product into a zero accumulator is the exact sum
    over the contraction axis, re-indexed from the one-axis contraction shape to `Fin 16`. -/
theorem pay1_apply (v0 : Vec Ideal S10000x16 .f32) (v3 : Vec Ideal S16x40 .f32) (y : S10000x40.Idx) :
    k1_pay1 (F := Ideal) v0 v3 y = ∑ k : Fin 16, v0 (bl1 y k) * v3 (br1 y k) := by
  unfold k1_pay1
  rw [shapeCast_self]
  refine (Ideal.matmul_constant_zero_apply dot_S10000x16_S16x40_S10000x40_1_0_0_1_n_n none _ _ _).trans ?_
  rw [← Equiv.sum_comp (ValueIdx.contrEquiv1 dot_S10000x16_S16x40_S10000x40_1_0_0_1_n_n 16 rfl rfl).symm]
  refine Finset.sum_congr rfl fun k _ => ?_
  have hk := ValueIdx.contrEquiv1_symm_val dot_S10000x16_S16x40_S10000x40_1_0_0_1_n_n 16 rfl rfl k
  have el : dot_S10000x16_S16x40_S10000x40_1_0_0_1_n_n.lhsIdx y ((ValueIdx.contrEquiv1 dot_S10000x16_S16x40_S10000x40_1_0_0_1_n_n 16 rfl rfl).symm k) = bl1 y k := funext fun a => Fin.ext (by
    match a with
    | ⟨0, _⟩ => exact lhs1_0 _ _
    | ⟨1, _⟩ => exact (lhs1_1 _ _).trans hk)
  have er : dot_S10000x16_S16x40_S10000x40_1_0_0_1_n_n.rhsIdx y ((ValueIdx.contrEquiv1 dot_S10000x16_S16x40_S10000x40_1_0_0_1_n_n 16 rfl rfl).symm k) = br1 y k := funext fun a => Fin.ext (by
    match a with
    | ⟨0, _⟩ => exact (rhs1_0 _ _).trans hk
    | ⟨1, _⟩ => exact rhs1_1 _ _)
  show v0 (dot_S10000x16_S16x40_S10000x40_1_0_0_1_n_n.lhsIdx y _) * v3 (dot_S10000x16_S16x40_S10000x40_1_0_0_1_n_n.rhsIdx y _) = _
  rw [el, er]

/-- One entry: if the block's operands, at the places entry `y` reads, are the arrays `A` and `B` at the places
    entry `i` of the product reads, then the body's value at `y` is the product's entry `i`. -/
theorem point1 (x0 : Vec Ideal S10000x16 .f32) (x1 : Vec Ideal S16x40 .f32)
    (A : S100000x16.Idx → EReal) (B : S16x40.Idx → EReal) (y : S10000x40.Idx) (i : S100000x40.Idx)
    (hA : ∀ k, x0 (bl1 y k) = A (lix2 i k)) (hB : ∀ k, x1 (br1 y k) = B (rix2 i k)) :
    k1_pay1 (F := Ideal) x0 x1 y = prod2 A B i := by
  rw [pay1_apply]
  exact Finset.sum_congr rfl fun k _ => by rw [hA, hB]

/-! ## The blocks the body reads -/

variable (V : (c : Dev nD) → (b : Ref sig .tc) → Buf (Elt Ideal) ((c : Thread nD τ).loc b))

theorem zoff1 : (![0, 0] : Fin 2 → Nat) = fun _ => 0 := funext fun a => by fin_cases a <;> rfl

/-- The block index of each window at grid point `t`, decided over the 10 points: the two row windows (the left
    operand and the result) sit at block (t, 0), the weight window at block (0, 0) always. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows 10000 t … of the array: its entry `x` is the array's entry `i`
    whenever `i` = (10000 t + row of x, column of x). -/
theorem iblk1_0_apply (c : Dev nD) (t : Fin cfg1.N) (x : S10000x16.Idx) (i : S100000x16.Idx)
    (h0 : (i 0).val = 10000 * t.val + (x 0).val) (h1 : (i 1).val = (x 1).val) :
    (iblk1 V c 0 t : Vec Ideal S10000x16 .f32) x = (V c main_v47 : S100000x16.Idx → EReal) i := by
  obtain ⟨e0, e1, -, -, -, -⟩ := idx_facts1 t
  unfold iblk1
  rw [View.read_apply]
  show V c main_v47 _ = V c main_v47 _
  refine congrArg _ ?_
  funext a
  apply Fin.ext
  match a with
  | ⟨0, _⟩ => show win1_0.index t (0 : Fin 2) * 10000 + 1 * (x 0).val = (i 0).val; rw [e0, h0]; omega
  | ⟨1, _⟩ => show win1_0.index t (1 : Fin 2) * 16 + 1 * (x 1).val = (i 1).val; rw [e1, h1]; omega

/-- The weight window's block at every point is the whole weight array. -/
theorem iblk1_1_apply (c : Dev nD) (t : Fin cfg1.N) (x i : S16x40.Idx)
    (h0 : (i 0).val = (x 0).val) (h1 : (i 1).val = (x 1).val) :
    (iblk1 V c 1 t : Vec Ideal S16x40 .f32) x = (V c main_arg4 : S16x40.Idx → EReal) i := by
  obtain ⟨-, -, e2, e3, -, -⟩ := idx_facts1 t
  unfold iblk1
  rw [View.read_apply]
  show V c main_arg4 _ = V c main_arg4 _
  refine congrArg _ ?_
  funext a
  apply Fin.ext
  match a with
  | ⟨0, _⟩ => show win1_1.index t (0 : Fin 2) * 16 + 1 * (x 0).val = (i 0).val; rw [e2, h0]; omega
  | ⟨1, _⟩ => show win1_1.index t (1 : Fin 2) * 40 + 1 * (x 1).val = (i 1).val; rw [e3, h1]; omega

/-! ## From the blocks to the array -/

/-- What point `t` writes back is block `t` of the product of the two arrays: the body loads and stores its whole
    staging buffers, entry `j` of the result block is entry (10000 t + row of j, column of j) of the array, and the
    operand blocks are read at the matching rows. -/
theorem flushed1_eq (c : Dev nD) (t : Fin cfg1.N) :
    (dat1 (F := Ideal) V c).flushed 2 t
      = ((cfg1.win 2).blk t).view.read (Elt Ideal) (prod2 (V c main_v47) (V c main_arg4)) := by
  show (cfg1.win 2).cut (grid1.coords t) ((dat1 V c).after 2 t) = _
  rw [after1_2]
  unfold out1_2
  rw [View.canon_unit_zero zoff1]
  simp only [View.ld_unit_zero (S := S10000x16) zoff1, View.ld_unit_zero (S := S16x40) zoff1]
  obtain ⟨-, -, -, -, e4, e5⟩ := idx_facts1 t
  funext j
  have hi0 : ((((cfg1.win 2).blk t).view.emb j) 0).val = 10000 * t.val + (j 0).val := by
    show win1_2.index t (0 : Fin 2) * 10000 + 1 * (j 0).val = _; rw [e4]; omega
  have hi1 : ((((cfg1.win 2).blk t).view.emb j) 1).val = (j 1).val := by
    show win1_2.index t (1 : Fin 2) * 40 + 1 * (j 1).val = _; rw [e5]; omega
  refine point1 (iblk1 V c 0 t) (iblk1 V c 1 t) (V c main_v47) (V c main_arg4)
    ((win1 2).xinj (grid1.coords t) j) (((cfg1.win 2).blk t).view.emb j) (fun k => ?_) (fun k => ?_)
  · exact iblk1_0_apply V c t _ _ hi0 rfl
  · exact iblk1_1_apply V c t _ _ rfl hi1

/-- An index of the result array lies in point `t`'s block iff each coordinate lies in the block's range on its axis. -/
theorem mem_blk1 (t : Fin cfg1.N) (i : S100000x40.Idx) :
    i ∈ ((cfg1.win 2).blk t).view.set ↔ ∀ a : Fin 2, win1_2.index t a * S10000x40.size a ≤ (i a).val ∧ (i a).val < win1_2.index t a * S10000x40.size a + S10000x40.size a := by
  show i ∈ ((View.whole main_v48).slice (win1_2.rect t)).set ↔ _
  rw [View.set_slice_whole, Rect.mem_set_unit]
  exact Iff.rfl

/-- Row `r` lies in the block of point `r / 10000`: the 10 blocks of 10000 rows cover the 100000 rows, and every
    point writes its block back. -/
theorem cover1 (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : grid1.N = 10 := N_1
  obtain ⟨t, ht⟩ : ∃ t : Fin cfg1.N, t.val = (i 0).val / 10000 := ⟨⟨(i 0).val / 10000, by show _ < grid1.N; omega⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 40 ≤ (i 1).val ∧ (i 1).val < win1_2.index t (1 : Fin 2) * 40 + 40; rw [e5]; omega

/-- After the region its result array is the product of the left operand and the weights, entry by entry. -/
theorem region1_eq (c : Dev nD) :
    (Cert.KernelIdeal.Gen.dat1 (F := Ideal) V c).arrAt 2 cfg1.N = prod2 (V c main_v47) (V c main_arg4) :=
  (dat1 (F := Ideal) V c).arrAt_eq_of_cover 2 (prod2 (V c main_v47) (V c main_arg4)) (fun t _ => flushed1_eq V c t) cover1

end Cert.KernelIdeal.Dense

end
-- ==== Proof.SoftmaxSpec.lean ====
/-
  The row-wise log-softmax of a matrix whose rows have a bias added, entry by entry.

  For a [100000, 40] matrix z and a bias b of length 40 put v = z + b along the rows.  The entry (r, q) of the result is
      (v (r, q) − m r) − log ( ∑ k, exp (v (r, k) − m r) ),        m r = max over k of v (r, k),
  the maximum folded from minus infinity (its f32 word, the least extended real) over the 40 entries of row r, the
  sum a plain sum over them.  Everything is an operation of the extended reals: no entry is assumed finite.
-/
import proofs.«141435_j27247272526424_1_alg».proof.KernelIdeal
import Idealize.ShloMosaic.PureOps.Ideal
import Idealize.ShloMosaic.Lib.ValueIdx

noncomputable section

open scoped BigOperators

namespace Cert.KernelIdeal.Softmax

open Idealize.ShloMosaic Idealize.ShloMosaic.ValueIdx Cert.KernelIdeal

/-- The index of the same row as i at column j. -/
abbrev rowAt (i : S100000x40.Idx) (j : Fin 40) : S100000x40.Idx :=
  fun a => match a with | ⟨0, _⟩ => ⟨(i 0).val, (i 0).isLt⟩ | ⟨1, _⟩ => ⟨j.val, j.isLt⟩

/-- The bias index of i's column. -/
abbrev colOf (i : S100000x40.Idx) : S40.Idx :=
  fun a => match a with | ⟨0, _⟩ => ⟨(i 1).val, (i 1).isLt⟩

/-- The entry i of z with the bias of its column added. -/
def biasedAt (z : S100000x40.Idx → EReal) (b : S40.Idx → EReal) (i : S100000x40.Idx) : EReal :=
  z i + b (colOf i)

/-- The maximum of the biased row through i, folded from minus infinity. -/
def rowMaxAt (z : S100000x40.Idx → EReal) (b : S40.Idx → EReal) (i : S100000x40.Idx) : EReal :=
  (Finset.univ : Finset (Fin 40)).fold max (Ideal.ofBits .f32 0xFF800000#32) (fun j => biasedAt z b (rowAt i j))

/-- The log-softmax of every biased row: the entry less its row's maximum, less the logarithm of the row's sum of the
    exponentials of the entries less that maximum. -/
def logSoftmaxBiased (z : S100000x40.Idx → EReal) (b : S40.Idx → EReal) : S100000x40.Idx → EReal := fun i =>
  (biasedAt z b i - rowMaxAt z b i)
    - Ideal.log (∑ j : Fin 40, Ideal.exp (biasedAt z b (rowAt i j) - rowMaxAt z b i))

/-- The same row at another column, by coordinates. -/
theorem rowAt_ix2 (r : Fin 100000) (q k : Fin 40) : rowAt (ix2 r q) k = ix2 r k := by
  funext a
  match a with
  | ⟨0, _⟩ => rfl
  | ⟨1, _⟩ => rfl

/-- The column of an index, by coordinates. -/
theorem colOf_ix2 (r : Fin 100000) (q : Fin 40) : colOf (ix2 r q) = ix1 q := by
  funext a
  match a with
  | ⟨0, _⟩ => rfl

/-- The result at (r, q), written out over the coordinates. -/
theorem logSoftmaxBiased_ix2 (z : S100000x40.Idx → EReal) (b : S40.Idx → EReal) (r : Fin 100000) (q : Fin 40) :
    logSoftmaxBiased z b (ix2 r q)
      = (z (ix2 r q) + b (ix1 q)
            - (Finset.univ : Finset (Fin 40)).fold max (Ideal.ofBits .f32 0xFF800000#32) (fun k => z (ix2 r k) + b (ix1 k)))
          - Ideal.log (∑ k : Fin 40, Ideal.exp (z (ix2 r k) + b (ix1 k)
              - (Finset.univ : Finset (Fin 40)).fold max (Ideal.ofBits .f32 0xFF800000#32) (fun k => z (ix2 r k) + b (ix1 k)))) := by
  unfold logSoftmaxBiased rowMaxAt biasedAt
  simp only [rowAt_ix2, colOf_ix2]

end Cert.KernelIdeal.Softmax

end
-- ==== Proof.LibRowReduce.lean ====
/-
  Rows of a matrix reduced along their entries, and a matrix read through its transpose.

  Over the extended reals a host sum of an [a, b] array along its second axis is, at row r, the initial value plus
  the plain sum over k of the entries (r, k).  A maximum along the second axis, whether taken by a lane reduction or
  by the host, is at row r the fold of max from the initial value over the entries (r, k), in any order.  The word
  of minus infinity is the least extended real, so taking a maximum with it changes nothing.  The transpose of a
  [b, a] matrix holds at (k, j) the matrix's entry (j, k).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ}

/-- The index of row r with the second coordinate k put back is (r, k). -/
theorem lift_row (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax
  refine Fin.ext ?_
  match ax with
  | ⟨0, _⟩ => rfl
  | ⟨1, _⟩ => rfl

/-- The host's sum of an [a, b] array along axis 1, at row r: the initial value plus the sum over k of the
    entries (r, k). -/
theorem hostRowSum_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  unfold Host.reduceAdd
  rw [Ideal.hostReduceAdd_def, Ideal.hostReduceAdd_single h' h]
  refine congrArg (_ + ·) (Finset.sum_congr rfl fun k _ => congrArg x ?_)
  exact lift_row h r k

/-- A lane maximum of an [a, b] f32 vector along axis 1, at row r: the fold of max from the accumulator's value over the
    entries (r, k). -/
theorem rowMax_apply (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) := by
  refine (Ideal.multiReduction_maximumf_single v acc h hφ hacc (ix1 r)).trans ?_
  refine congrArg (fun f => Finset.fold max (Ideal.ofBits .f32 acc) f (Finset.univ : Finset (Fin b))) ?_
  funext k
  exact congrArg v (lift_row h r k)

/-- The host's maximum of an [a, b] array along axis 1, at row r: the fold of max from the initial value over the
    entries (r, k). -/
theorem hostRowMax_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single (FloatOps.maximumf (F := Ideal) (φ := .f32)) x init h' h hu]
  refine congrArg (fun f => Finset.fold max (init (Shape.Idx.first hu)) f (Finset.univ : Finset (Fin b))) ?_
  funext k
  exact congrArg x (lift_row h r k)

/-- The f32 word of minus infinity is the least extended real: a maximum with it is the other operand. -/
theorem max_negInf_left (y : EReal) : max (Ideal.ofBits .f32 0xFF800000#32) y = y := by
  simp [Ideal.ofBits, Ideal.ieee]

/-- The transpose of a [b, a] matrix reads, at (k, j), the matrix's entry (j, k). -/
theorem transpose_swap_apply {α : Type} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) := by
  refine transpose_apply [1, 0] x h (ix2 k j) (ix2 j k) fun ax => ?_
  match ax with
  | ⟨0, _⟩ => rfl
  | ⟨1, _⟩ => rfl

end Cert.LibRowReduce

end
-- ==== Proof.SoftmaxRegion.lean ====
/-
  The last region's output array is the row-wise log-softmax of the biased matrix.

  The region cuts the [100000, 40] matrix into 10 blocks of 10000 rows; at every point it reads one block and the whole
  bias, and writes one block of the result.  Inside a block the body adds the bias to every row, takes each row's maximum
  by a lane reduction from minus infinity, subtracts it, exponentiates, sums each row by a lane reduction from zero, takes
  the logarithm and subtracts: at the entry (p, q) of the block that is the specification's formula on row p of the block.
  Row p of block t is row 10000 t + p of the matrix, and every row of the matrix lies in the block of the point
  row / 10000, so the blocks written back make up the specification's array.
-/
import proofs.«141435_j27247272526424_1_alg».proof.Proof.SoftmaxSpec
import proofs.«141435_j27247272526424_1_alg».proof.Proof.LibRowReduce
import proofs.«141435_j27247272526424_1_alg».proof.Proof.Gen.KernelIdeal.Frame
import Idealize.ShloMosaic.Lib.ValueLayout

noncomputable section

open scoped BigOperators

namespace Cert.KernelIdeal.Softmax

open Idealize.ShloMosaic Idealize.ShloMosaic.ValueIdx Idealize.ShloMosaic.TcCoe
open Idealize.ShloMosaic.Pipeline (Dat)
open Cert.KernelIdeal Cert.KernelIdeal.Gen

/-! ## Columns: a vector of row values as a one-column matrix, and a one-column matrix spread over the columns -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic in three steps -/

/-- The block with the bias added to every row. -/
def biasedBlk (v0 : Vec Ideal S40 .f32) (v4 : Vec Ideal S10000x40 .f32) : FVec Ideal S10000x40 .f32 :=
  addf (shapeCast S10000x40 v4 shapeCasts_S10000x40_S10000x40)
    (broadcastTo S10000x40 (shapeCast S1x40 (shapeCast S1x40 v0 shapeCasts_S40_S1x40) shapeCasts_S1x40_S1x40)
      broadcasts_S1x40_S10000x40)

/-- A block less its rows' maxima. -/
def shiftedBlk (v6 : FVec Ideal S10000x40 .f32) : FVec Ideal S10000x40 .f32 :=
  subf v6 (broadcastTo S10000x40
    (shapeCast S10000x1 (multiReduction .maximumf [1] S10000 v6 0xFF800000#32 reduces_S10000x40_S10000 (.inl rfl) rfl)
      shapeCasts_S10000_S10000x1) broadcasts_S10000x1_S10000x40)

/-- A shifted block less the logarithm of its rows' sums of exponentials. -/
def lessLogSum (v10 : FVec Ideal S10000x40 .f32) : FVec Ideal S10000x40 .f32 :=
  subf v10 (broadcastTo S10000x40
    (log (shapeCast S10000x1 (multiReduction .add [1] S10000 (exp v10) 0x00000000#32 reduces_S10000x40_S10000 (.inl rfl) rfl)
      shapeCasts_S10000_S10000x1)) broadcasts_S10000x1_S10000x40)

/-- The body's payload is the three steps in turn. -/
theorem pay_eq (v0 : Vec Ideal S40 .f32) (v4 : Vec Ideal S10000x40 .f32) :
    k2_pay1 (F := Ideal) v0 v4 = lessLogSum (shiftedBlk (biasedBlk v0 v4)) := rfl

/-- The biased block at (p, q): the entry plus the bias of column q. -/
theorem biasedBlk_apply (v0 : Vec Ideal S40 .f32) (v4 : Vec Ideal S10000x40 .f32) (p : Fin 10000) (q : Fin 40) :
    biasedBlk v0 v4 (ix2 p q) = v4 (ix2 p q) + v0 (ix1 q) := by
  unfold biasedBlk
  rw [shapeCast_self, shapeCast_self]
  refine (addf_apply _ _ _).trans (congrArg (v4 (ix2 p q) + ·) ?_)
  exact (broadcastTo_1b_ab_apply _ _ p q).trans (shapeCast_a_1a_apply v0 _ (0 : Fin 1) q)

/-- The row maximum a lane reduction takes, at row p: the fold of max from minus infinity over the row's entries. -/
theorem laneMax_apply (v6 : FVec Ideal S10000x40 .f32) (p : Fin 10000) :
    multiReduction .maximumf [1] S10000 v6 0xFF800000#32 reduces_S10000x40_S10000 (.inl rfl) rfl (ix1 p)
      = (Finset.univ : Finset (Fin 40)).fold max (Ideal.ofBits .f32 0xFF800000#32) (fun k => v6 (ix2 p k)) :=
  Cert.LibRowReduce.rowMax_apply v6 0xFF800000#32 reduces_S10000x40_S10000 (.inl rfl) rfl p

/-- The row sum a lane reduction takes, at row p: the plain sum over the row's entries. -/
theorem laneSum_apply (v11 : FVec Ideal S10000x40 .f32) (p : Fin 10000) :
    multiReduction .add [1] S10000 v11 0x00000000#32 reduces_S10000x40_S10000 (.inl rfl) rfl (ix1 p)
      = ∑ k : Fin 40, v11 (ix2 p k) := by
  refine (Ideal.multiReduction_add_single v11 0x00000000#32 reduces_S10000x40_S10000 (.inl rfl) rfl (ix1 p)).trans ?_
  exact Finset.sum_congr rfl fun k _ => congrArg v11 (Cert.LibRowReduce.lift_row reduces_S10000x40_S10000 p k)

/-- The shifted block at (p, q): the entry less its row's maximum. -/
theorem shiftedBlk_apply (v6 : FVec Ideal S10000x40 .f32) (p : Fin 10000) (q : Fin 40) :
    shiftedBlk v6 (ix2 p q)
      = v6 (ix2 p q) - (Finset.univ : Finset (Fin 40)).fold max (Ideal.ofBits .f32 0xFF800000#32) (fun k => v6 (ix2 p k)) := by
  unfold shiftedBlk
  refine (subf_apply _ _ _).trans (congrArg (v6 (ix2 p q) - ·) ?_)
  exact ((broadcastTo_a1_ab_apply _ _ p q).trans (shapeCast_a_a1_apply _ _ p (0 : Fin 1))).trans (laneMax_apply v6 p)

/-- The last step at (p, q): the entry less the logarithm of its row's sum of exponentials. -/
theorem lessLogSum_apply (v10 : FVec Ideal S10000x40 .f32) (p : Fin 10000) (q : Fin 40) :
    lessLogSum v10 (ix2 p q) = v10 (ix2 p q) - Ideal.log (∑ k : Fin 40, Ideal.exp (v10 (ix2 p k))) := by
  unfold lessLogSum
  refine (subf_apply _ _ _).trans (congrArg (v10 (ix2 p q) - ·) ?_)
  refine (broadcastTo_a1_ab_apply _ _ p q).trans ?_
  show Ideal.log (shapeCast S10000x1 _ shapeCasts_S10000_S10000x1 (ix2 p (0 : Fin 1))) = _
  refine congrArg Ideal.log ((shapeCast_a_a1_apply _ _ p (0 : Fin 1)).trans ?_)
  exact laneSum_apply (exp v10) p

/-- THE PAYLOAD AT (p, q): the specification's formula on row p of the block. -/
theorem pay_apply (v0 : Vec Ideal S40 .f32) (v4 : Vec Ideal S10000x40 .f32) (p : Fin 10000) (q : Fin 40) :
    k2_pay1 (F := Ideal) v0 v4 (ix2 p q)
      = (v4 (ix2 p q) + v0 (ix1 q)
            - (Finset.univ : Finset (Fin 40)).fold max (Ideal.ofBits .f32 0xFF800000#32) (fun k => v4 (ix2 p k) + v0 (ix1 k)))
          - Ideal.log (∑ k : Fin 40, Ideal.exp (v4 (ix2 p k) + v0 (ix1 k)
              - (Finset.univ : Finset (Fin 40)).fold max (Ideal.ofBits .f32 0xFF800000#32) (fun k => v4 (ix2 p k) + v0 (ix1 k)))) := by
  rw [pay_eq, lessLogSum_apply]
  simp only [shiftedBlk_apply, biasedBlk_apply]

/-! ## From blocks to the array -/

theorem hz1 : (![0] : Fin 1 → Nat) = fun _ => 0 := funext fun a => by fin_cases a; rfl
theorem hz2 : (![0, 0] : Fin 2 → Nat) = fun _ => 0 := funext fun a => by fin_cases a <;> rfl

/-- The index maps over the grid: the matrix's and the result's block at point t is block (t, 0), the bias's is block 0. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- Row p of the matrix's block at point t is row r = 10000 t + p of the matrix. -/
theorem iblk_matrix_apply (V : (c : Dev nD) → (b : Ref sig .tc) → Buf (Elt Ideal) ((c : Thread nD τ).loc b)) (c : Dev nD)
    (t : Fin cfg2.N) (p : Fin 10000) (k : Fin 40) (r : Fin 100000) (hr : r.val = t.val * 10000 + p.val) :
    iblk2 (F := Ideal) V c 0 t (ix2 p k) = V c main_v60 (ix2 r k) := by
  obtain ⟨e0, e1, -⟩ := idx_facts t
  show V c main_v60 (((cfg2.win 0).blk t).view.emb (ix2 p k)) = V c main_v60 (ix2 r k)
  refine congrArg (V c main_v60) (funext fun a => Fin.ext ?_)
  match a with
  | ⟨0, _⟩ => show win2_0.index t (0 : Fin 2) * 10000 + 1 * p.val = r.val; omega
  | ⟨1, _⟩ => show win2_0.index t (1 : Fin 2) * 40 + 1 * k.val = k.val; omega

/-- The bias's block at every point is the bias. -/
theorem iblk_bias_apply (V : (c : Dev nD) → (b : Ref sig .tc) → Buf (Elt Ideal) ((c : Thread nD τ).loc b)) (c : Dev nD)
    (t : Fin cfg2.N) (k : Fin 40) :
    iblk2 (F := Ideal) V c 1 t (ix1 k) = V c main_arg5 (ix1 k) := by
  obtain ⟨-, -, e2, -⟩ := idx_facts t
  show V c main_arg5 (((cfg2.win 1).blk t).view.emb (ix1 k)) = V c main_arg5 (ix1 k)
  refine congrArg (V c main_arg5) (funext fun a => Fin.ext ?_)
  match a with
  | ⟨0, _⟩ => show win2_1.index t (0 : Fin 1) * 40 + 1 * k.val = k.val; omega

/-- Entry (p, q) of the result's block at point t sits at (10000 t + p, q) of the result. -/
theorem out_emb (t : Fin cfg2.N) (p : Fin 10000) (q : Fin 40) (r : Fin 100000) (hr : r.val = t.val * 10000 + p.val) :
    ((cfg2.win 2).blk t).view.emb (ix2 p q) = (ix2 r q : S100000x40.Idx) := by
  obtain ⟨-, -, -, e3, e4⟩ := idx_facts t
  refine funext fun a => Fin.ext ?_
  match a with
  | ⟨0, _⟩ => show win2_2.index t (0 : Fin 2) * 10000 + 1 * p.val = r.val; omega
  | ⟨1, _⟩ => show win2_2.index t (1 : Fin 2) * 40 + 1 * q.val = q.val; omega

/-- The payload of blocks that are rows of z and the whole of b is the specification on those rows. -/
theorem pay_eq_spec (z : S100000x40.Idx → EReal) (b : S40.Idx → EReal) (v0 : Vec Ideal S40 .f32) (v4 : Vec Ideal S10000x40 .f32)
    (p : Fin 10000) (q : Fin 40) (r : Fin 100000)
    (h4 : ∀ k : Fin 40, v4 (ix2 p k) = z (ix2 r k)) (h0 : ∀ k : Fin 40, v0 (ix1 k) = b (ix1 k)) :
    k2_pay1 (F := Ideal) v0 v4 (ix2 p q) = logSoftmaxBiased z b (ix2 r q) := by
  rw [pay_apply, logSoftmaxBiased_ix2]
  simp only [h4, h0]

/-- WHAT POINT t WRITES BACK is block t of the specification's array. -/
theorem flushed_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (logSoftmaxBiased (V c main_v60) (V c main_arg5)) := by
  show (cfg2.win 2).cut (grid2.coords t) ((dat2 (F := Ideal) V c).after 2 t) = _
  rw [after2_2]
  unfold out2_2
  rw [View.canon_unit_zero hz2]
  simp only [View.ld_unit_zero (S := S10000x40) hz2, View.ld_unit_zero (S := S40) hz1]
  funext j
  obtain ⟨p, q, rfl⟩ : ∃ (p : Fin 10000) (q : Fin 40), j = ix2 p q := ⟨j 0, j 1, eq_ix2 j⟩
  have hN : grid2.N = 10 := N_2
  have ht : t.val < 10 := hN ▸ t.isLt
  have hp : p.val < 10000 := p.isLt
  show k2_pay1 (F := Ideal) (iblk2 (F := Ideal) V c 1 t) (iblk2 (F := Ideal) V c 0 t) (ix2 p q)
    = logSoftmaxBiased (V c main_v60) (V c main_arg5) (((cfg2.win 2).blk t).view.emb (ix2 p q))
  rw [out_emb t p q ⟨t.val * 10000 + p.val, by omega⟩ rfl]
  exact pay_eq_spec (V c main_v60) (V c main_arg5) _ _ p q ⟨t.val * 10000 + p.val, by omega⟩
    (fun k => iblk_matrix_apply V c t p k _ rfl) (fun k => iblk_bias_apply V c t k)

/-- An index of the result is in point t's block iff each coordinate is in the block's range on its axis. -/
theorem mem_blk (t : Fin cfg2.N) (i : S100000x40.Idx) :
    i ∈ ((cfg2.win 2).blk t).view.set
      ↔ ∀ a : Fin 2, win2_2.index t a * S10000x40.size a ≤ (i a).val ∧ (i a).val < win2_2.index t a * S10000x40.size a + S10000x40.size a := by
  show i ∈ ((View.whole main_v61).slice (win2_2.rect t)).set ↔ _
  rw [View.set_slice_whole, Rect.mem_set_unit]
  exact Iff.rfl

/-- Every row of the result lies in the block of the point row / 10000, which writes it back. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 10 := N_2
  have ht : (i 0).val / 10000 < grid2.N := by rw [hN]; omega
  obtain ⟨-, -, -, e3, e4⟩ := idx_facts ⟨(i 0).val / 10000, ht⟩
  refine ⟨⟨(i 0).val / 10000, ht⟩, flush2_2 _, ?_⟩
  rw [mem_blk]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e3]; show (i 0).val / 10000 * 10000 ≤ (i 0).val ∧ (i 0).val < (i 0).val / 10000 * 10000 + 10000
    omega
  | ⟨1, _⟩ =>
    show win2_2.index ⟨(i 0).val / 10000, ht⟩ (1 : Fin 2) * 40 ≤ (i 1).val
      ∧ (i 1).val < win2_2.index ⟨(i 0).val / 10000, ht⟩ (1 : Fin 2) * 40 + 40
    rw [e4]; omega

/-- THE REGION'S OUTPUT ARRAY after its last write-back is the specification's function of the matrix and the bias as
    the region finds them. -/
theorem region2_eq (V : (c : Dev nD) → (b : Ref sig .tc) → Buf (Elt Ideal) ((c : Thread nD τ).loc b)) (c : Dev nD) :
    (Cert.KernelIdeal.Gen.dat2 (F := Ideal) V c).arrAt 2 cfg2.N
      = Cert.KernelIdeal.Softmax.logSoftmaxBiased (V c main_v60) (V c main_arg5) :=
  (dat2 (F := Ideal) V c).arrAt_eq_of_cover 2 (logSoftmaxBiased (V c main_v60) (V c main_arg5))
    (fun t _ => flushed_eq V c t) cover

end Cert.KernelIdeal.Softmax

end
-- ==== Proof.KernelValue.lean ====
/-
  What the tiled program leaves in its result buffer.

  Walking the segment boundaries of @main back from the return: the result buffer holds the third region's output,
  the row-wise log-softmax of its input array plus the last bias; that input is the second aggregation of the second
  region's output, a dense product of the hidden layer with the second weight matrix; the hidden layer is the stage
  function of the first region's output, the dense product of the features with the first weight matrix; and the edge
  arrays every aggregation reads were computed before the first region and are kept, untouched, across the regions and
  the later host stretches, as are the arguments.
-/
import proofs.«141435_j27247272526424_1_alg».proof.Proof.KernelHost
import proofs.«141435_j27247272526424_1_alg».proof.Proof.DenseRegion0
import proofs.«141435_j27247272526424_1_alg».proof.Proof.DenseRegion1
import proofs.«141435_j27247272526424_1_alg».proof.Proof.SoftmaxRegion

set_option maxRecDepth 16384

noncomputable section

namespace Cert.KernelIdeal.Final

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The edge arrays and the arguments at every boundary that reads them -/

theorem src_W4 : W4 m ρ c (Proc.devRef .tc main_v3) = Cert.ReferenceIdeal.Stages.src (m ((c.tc : Thread nD τ).loc main_arg1)) :=
  (W4_of_ne m ρ c main_v3 (by decide)).trans (Host.src_at m ρ c)
theorem dst_W4 : W4 m ρ c (Proc.devRef .tc main_v6) = Cert.ReferenceIdeal.Stages.dst (m ((c.tc : Thread nD τ).loc main_arg1)) :=
  (W4_of_ne m ρ c main_v6 (by decide)).trans (Host.dst_at m ρ c)
theorem weight_W4 : W4 m ρ c (Proc.devRef .tc main_v30) = Cert.ReferenceIdeal.Stages.weightColumn (m ((c.tc : Thread nD τ).loc main_arg1)) :=
  (W4_of_ne m ρ c main_v30 (by decide)).trans (Host.weight_at m ρ c)
theorem b1_W4 : W4 m ρ c (Proc.devRef .tc main_arg3) = (m ((c.tc : Thread nD τ).loc main_arg3)) :=
  (W4_of_ne m ρ c main_arg3 (by decide)).trans (Host.arg_at_W3 m ρ c main_arg3 (by simp))
theorem w2_W6 : W6 m ρ c (Proc.devRef .tc main_arg4) = (m ((c.tc : Thread nD τ).loc main_arg4)) :=
  (Host.keep_W6 m ρ c main_arg4 (by simp)).trans ((W4_of_ne m ρ c main_arg4 (by decide)).trans (Host.arg_at_W3 m ρ c main_arg4 (by simp)))
theorem src_W7 : W7 m ρ c (Proc.devRef .tc main_v3) = Cert.ReferenceIdeal.Stages.src (m ((c.tc : Thread nD τ).loc main_arg1)) :=
  (W7_of_ne m ρ c main_v3 (by decide)).trans ((Host.keep_W6 m ρ c main_v3 (by simp)).trans (src_W4 m ρ c))
theorem dst_W7 : W7 m ρ c (Proc.devRef .tc main_v6) = Cert.ReferenceIdeal.Stages.dst (m ((c.tc : Thread nD τ).loc main_arg1)) :=
  (W7_of_ne m ρ c main_v6 (by decide)).trans ((Host.keep_W6 m ρ c main_v6 (by simp)).trans (dst_W4 m ρ c))
theorem weight_W7 : W7 m ρ c (Proc.devRef .tc main_v30) = Cert.ReferenceIdeal.Stages.weightColumn (m ((c.tc : Thread nD τ).loc main_arg1)) :=
  (W7_of_ne m ρ c main_v30 (by decide)).trans ((Host.keep_W6 m ρ c main_v30 (by simp)).trans (weight_W4 m ρ c))
theorem b2_W8 : W8 m ρ c (Proc.devRef .tc main_arg5) = (m ((c.tc : Thread nD τ).loc main_arg5)) :=
  (Host.keep_W8 m ρ c).trans ((W7_of_ne m ρ c main_arg5 (by decide)).trans ((Host.keep_W6 m ρ c main_arg5 (by simp)).trans
    ((W4_of_ne m ρ c main_arg5 (by decide)).trans (Host.arg_at_W3 m ρ c main_arg5 (by simp)))))

/-! ## The three regions' outputs -/

/-- The first region leaves `x · W1`. -/
theorem dense1_W4 : W4 m ρ c (Proc.devRef .tc main_v31) = Dense.prod1 (m ((c.tc : Thread nD τ).loc main_arg0)) (m ((c.tc : Thread nD τ).loc main_arg2)) := by
  refine (W4_arr m ρ c 2).trans ((Dense.region0_eq (V3 m ρ) c).trans ?_)
  show Dense.prod1 (W3 m ρ c (Proc.devRef .tc main_arg0)) (W3 m ρ c (Proc.devRef .tc main_arg2)) = _
  rw [Host.arg_at_W3 m ρ c main_arg0 (by simp), Host.arg_at_W3 m ρ c main_arg2 (by simp)]

/-- The hidden layer the second region reads. -/
theorem hidden_W6 : W6 m ρ c (Proc.devRef .tc main_v47)
    = Cert.ReferenceIdeal.Stages.hiddenOf (Dense.prod1 (m ((c.tc : Thread nD τ).loc main_arg0)) (m ((c.tc : Thread nD τ).loc main_arg2)))
        (Cert.ReferenceIdeal.Stages.src (m ((c.tc : Thread nD τ).loc main_arg1))) (Cert.ReferenceIdeal.Stages.dst (m ((c.tc : Thread nD τ).loc main_arg1)))
        (Cert.ReferenceIdeal.Stages.weightColumn (m ((c.tc : Thread nD τ).loc main_arg1))) (m ((c.tc : Thread nD τ).loc main_arg3)) := by
  rw [Host.hidden_at m ρ c, dense1_W4 m ρ c, src_W4 m ρ c, dst_W4 m ρ c, weight_W4 m ρ c, b1_W4 m ρ c]

/-- The second region leaves the hidden layer times `W2`. -/
theorem dense2_W7 : W7 m ρ c (Proc.devRef .tc main_v48)
    = Dense.prod2 (Cert.ReferenceIdeal.Stages.hiddenOf (Dense.prod1 (m ((c.tc : Thread nD τ).loc main_arg0)) (m ((c.tc : Thread nD τ).loc main_arg2)))
        (Cert.ReferenceIdeal.Stages.src (m ((c.tc : Thread nD τ).loc main_arg1))) (Cert.ReferenceIdeal.Stages.dst (m ((c.tc : Thread nD τ).loc main_arg1)))
        (Cert.ReferenceIdeal.Stages.weightColumn (m ((c.tc : Thread nD τ).loc main_arg1))) (m ((c.tc : Thread nD τ).loc main_arg3))) (m ((c.tc : Thread nD τ).loc main_arg4)) := by
  refine (W7_arr m ρ c 2).trans ((Dense.region1_eq (V6 m ρ) c).trans ?_)
  show Dense.prod2 (W6 m ρ c (Proc.devRef .tc main_v47)) (W6 m ρ c (Proc.devRef .tc main_arg4)) = _
  rw [hidden_W6 m ρ c, w2_W6 m ρ c]

/-- The tiled program's result: the log-softmax region's function of the second aggregation and the last bias. -/
theorem result_at : W9 m ρ c (Proc.devRef .tc main_v61)
    = Softmax.logSoftmaxBiased
        (Cert.ReferenceIdeal.Stages.edgeSum40
          (Dense.prod2 (Cert.ReferenceIdeal.Stages.hiddenOf (Dense.prod1 (m ((c.tc : Thread nD τ).loc main_arg0)) (m ((c.tc : Thread nD τ).loc main_arg2)))
            (Cert.ReferenceIdeal.Stages.src (m ((c.tc : Thread nD τ).loc main_arg1))) (Cert.ReferenceIdeal.Stages.dst (m ((c.tc : Thread nD τ).loc main_arg1)))
            (Cert.ReferenceIdeal.Stages.weightColumn (m ((c.tc : Thread nD τ).loc main_arg1))) (m ((c.tc : Thread nD τ).loc main_arg3))) (m ((c.tc : Thread nD τ).loc main_arg4)))
          (Cert.ReferenceIdeal.Stages.src (m ((c.tc : Thread nD τ).loc main_arg1))) (Cert.ReferenceIdeal.Stages.dst (m ((c.tc : Thread nD τ).loc main_arg1)))
          (Cert.ReferenceIdeal.Stages.weightColumn (m ((c.tc : Thread nD τ).loc main_arg1))))
        (m ((c.tc : Thread nD τ).loc main_arg5)) := by
  refine (W9_arr m ρ c 2).trans ((Softmax.region2_eq (V8 m ρ) c).trans ?_)
  show Softmax.logSoftmaxBiased (W8 m ρ c (Proc.devRef .tc main_v60)) (W8 m ρ c (Proc.devRef .tc main_arg5)) = _
  rw [Host.logits_at m ρ c, dense2_W7 m ρ c, src_W7 m ρ c, dst_W7 m ρ c, weight_W7 m ρ c, b2_W8 m ρ c]

end Cert.KernelIdeal.Final

end
-- ==== Proof.RefValue.lean ====
/-
  The reference's run ends at the network of stages.

  The reference program is a straight line of 138 host operations. Run from any memory, every weakly fair execution
  terminates, the six arguments end unchanged, and the result buffer holds what the operations compose to from the
  launch contents of the arguments: reading the line back one operation at a time, that is the composition `network`
  of the named stages — the same operations in the same order, the edge arrays and weights recomputed for the second
  layer from the same edge list. The operations of the outlined log-softmax pass their values through transports
  between a buffer's contents type and the value's type, which are the same type; these are removed by rewriting before
  the two compositions are compared, so that the row maximum — a fold over the array's four million entries — is only
  ever compared argument by argument and never run.
-/
import proofs.«141435_j27247272526424_1_alg».proof.Proof.RefRunP
import proofs.«141435_j27247272526424_1_alg».proof.Proof.EdgeStages

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- A transport along an equation of a type with itself does nothing (stated as a rewrite, not a computation). -/
theorem cast_self {α : Sort _} (h : α = α) (a : α) : cast h a = a := eq_of_heq (cast_heq h a)

section
-- the row maximum is compared argument by argument, never by running its fold
attribute [local irreducible] Host.reduce

set_option maxRecDepth 8192 in
set_option maxHeartbeats 55200000 in
/-- The line of operations leaves, in the result buffer, the network of stages at the arguments' launch contents. -/
theorem result_eq (m : (ℓ : Loc nD τ sig) → Buf (Elt F) ℓ) (c : Dev nD) :
    StableHlo.after (ops (F := F)) (fun b => m ((c.tc : Thread nD τ).1, b)) (Proc.devRef .tc main_v95)
      = Stages.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  after_results_simp
  simp only [cast_self]
  rfl
end

set_option maxRecDepth 8192 in
set_option maxHeartbeats 55200000 in
/-- Every weakly fair execution of the reference terminates with its result at the network of stages and its
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = Stages.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.SoftmaxReference.lean ====
/-
  The reference's tail is the row-wise log-softmax of the biased matrix, entry by entry.

  The reference adds the bias along the rows (two broadcasts and a sum), takes every row's maximum by a host reduction
  started from minus infinity and compared once more with minus infinity, subtracts it, exponentiates, sums every row
  on the host from zero, takes the logarithm and subtracts.  Read at the entry (r, q): a broadcast reads its operand at
  the coordinates it keeps; the host maximum of row r is the fold of max over the row's 40 entries; a maximum with minus
  infinity is the other operand; the host sum of row r is zero plus the plain sum over the row's entries.  What is left is
  the formula of the specification, term for term.
-/
import proofs.«141435_j27247272526424_1_alg».proof.Proof.SoftmaxSpec
import proofs.«141435_j27247272526424_1_alg».proof.Proof.RefStages
import proofs.«141435_j27247272526424_1_alg».proof.Proof.LibRowReduce

noncomputable section

open scoped BigOperators

namespace Cert.ReferenceIdeal.SoftmaxTail

open Idealize.ShloMosaic Idealize.ShloMosaic.ValueIdx
open Cert.ReferenceIdeal Cert.ReferenceIdeal.Gen Cert.ReferenceIdeal.Stages Cert.LibRowReduce

/-- Reducing a [100000, 40] array along its second axis leaves its rows' indices. -/
theorem reduces_rows : S100000x40.Reduces [1] S100000 := by decide

/-- The biased matrix at (r, q): the entry plus the bias of column q. -/
theorem biased_apply (z : FVec Ideal S100000x40 .f32) (b : FVec Ideal S40 .f32) (r : Fin 100000) (q : Fin 40) :
    biased (F := Ideal) z b (ix2 r q) = z (ix2 r q) + b (ix1 q) := by
  unfold biased
  refine (addf_apply _ _ _).trans (congrArg (z (ix2 r q) + ·) ?_)
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The row maximum at row r: the fold of max from minus infinity over the row's entries. -/
theorem rowMax_apply (v : FVec Ideal S100000x40 .f32) (r : Fin 100000) :
    rowMax (F := Ideal) v (ix1 r)
      = (Finset.univ : Finset (Fin 40)).fold max (Ideal.ofBits .f32 0xFF800000#32) (fun k => v (ix2 r k)) := by
  unfold rowMax
  refine (maximumf_apply _ _ _).trans ?_
  rw [hostRowMax_apply v _ reducesTo_S100000x40_S100000_d1 reduces_rows h_S_ r]
  rw [broadcastInDim_apply _ _ _ (ix1 r) ix0 fun a => a.elim0]
  exact max_negInf_left _

/-- A column of row values spread over the row's 40 columns reads, at (r, q), the value of row r. -/
theorem spread_apply (x : FVec Ideal S100000 .f32) (r : Fin 100000) (q : Fin 40) :
    broadcastInDim S100000x40 ![0, 1] bcast_S100000x1_S100000x40_0_1 (broadcastInDim S100000x1 ![0] bcast_S100000_S100000x1_0 x) (ix2 r q)
      = x (ix1 r) := by
  refine (broadcastInDim_apply _ _ _ (ix2 r q) (ix2 r (0 : Fin 1)) fun a => ?_).trans ?_
  · match a with
    | ⟨0, _⟩ => rfl
    | ⟨1, _⟩ => rfl
  · refine broadcastInDim_apply _ _ _ (ix2 r (0 : Fin 1)) (ix1 r) fun a => ?_
    match a with
    | ⟨0, _⟩ => rfl

/-- The shifted matrix at (r, q): the entry less its row's maximum. -/
theorem shifted_apply (v : FVec Ideal S100000x40 .f32) (r : Fin 100000) (q : Fin 40) :
    shifted (F := Ideal) v (ix2 r q) = v (ix2 r q) - rowMax (F := Ideal) v (ix1 r) := by
  unfold shifted
  exact (subf_apply _ _ _).trans (congrArg (v (ix2 r q) - ·) (spread_apply _ r q))

/-- The host's logarithm and exponential at an index are the extended reals' of the entry there. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The log-softmax at (r, q): the shifted entry less the logarithm of zero plus the row's sum of exponentials. -/
theorem logSoftmax_apply (v : FVec Ideal S100000x40 .f32) (r : Fin 100000) (q : Fin 40) :
    logSoftmax (F := Ideal) v (ix2 r q)
      = shifted (F := Ideal) v (ix2 r q)
          - Ideal.log (Ideal.ofBits .f32 0x00000000#32 + ∑ k : Fin 40, Ideal.exp (shifted (F := Ideal) v (ix2 r k))) := by
  unfold logSoftmax
  refine (subf_apply _ _ _).trans (congrArg (shifted (F := Ideal) v (ix2 r q) - ·) ?_)
  refine (broadcastInDim_apply _ _ _ (ix2 r q) (ix2 r (0 : Fin 1)) fun a => ?_).trans ?_
  · match a with
    | ⟨0, _⟩ => rfl
    | ⟨1, _⟩ => rfl
  · refine (hostLog_apply _ _).trans (congrArg Ideal.log ?_)
    refine (broadcastInDim_apply _ _ _ (ix2 r (0 : Fin 1)) (ix1 r) fun a => ?_).trans ?_
    · match a with
      | ⟨0, _⟩ => rfl
    · refine (hostRowSum_apply (Host.exp (shifted (F := Ideal) v)) _ reducesTo_S100000x40_S100000_d1 reduces_rows h_S_ r).trans ?_
      exact congrArg (_ + ·) (Finset.sum_congr rfl fun k _ => hostExp_apply _ _)

/-- THE REFERENCE'S TAIL is the specification's function of the matrix and the bias. -/
theorem reference_eq (z : (⟨Cert.ReferenceIdeal.S100000x40, .f32⟩ : BufTy).Contents (Elt Ideal))
    (b : (⟨Cert.ReferenceIdeal.S40, .f32⟩ : BufTy).Contents (Elt Ideal)) :
    Cert.ReferenceIdeal.Stages.logSoftmax (F := Ideal) (Cert.ReferenceIdeal.Stages.biased (F := Ideal) z b)
      = Cert.KernelIdeal.Softmax.logSoftmaxBiased z b := by
  funext i
  obtain ⟨r, q, rfl⟩ : ∃ (r : Fin 100000) (q : Fin 40), i = ix2 r q := ⟨i 0, i 1, eq_ix2 i⟩
  rw [Cert.KernelIdeal.Softmax.logSoftmaxBiased_ix2, logSoftmax_apply]
  simp only [shifted_apply, rowMax_apply, biased_apply, Ideal.ofBits_zero_f32, zero_add]

end Cert.ReferenceIdeal.SoftmaxTail

end
-- ==== Proof.Bridge.lean ====
/-
  The reference's network in the shape of the tiled program's result.

  Over the extended reals the host's dense product is, entry by entry, the plain sum over the inner index of the
  products of the operands' entries — the same sum each tile of the accelerator's matrix product holds for its rows.
  The reference's two aggregations are the edge sums at the edge arrays the tiled program computes once and keeps.
  The reference's last stage, the row-wise log-softmax of the biased logits, is the function the last accelerator region
  computes block by block. So the network of stages is the tiled program's result, as functions of the six arguments.
-/
import proofs.«141435_j27247272526424_1_alg».proof.Proof.EdgeStages
import proofs.«141435_j27247272526424_1_alg».proof.Proof.DenseRegion0
import proofs.«141435_j27247272526424_1_alg».proof.Proof.DenseRegion1
import proofs.«141435_j27247272526424_1_alg».proof.Proof.SoftmaxReference
import Idealize.ShloMosaic.Lib.ValueIdx
import Idealize.ShloMosaic.PureOps.Ideal.Laws

noncomputable section

namespace Cert.ReferenceIdeal.Bridge

open Cert.ReferenceIdeal Cert.ReferenceIdeal.Gen Idealize.ShloMosaic Idealize.ShloMosaic.TcCoe

/-! ### The host product `dense1` entry by entry -/

theorem dense1_lhs_row (i : S100000x16.Idx) (q : dot_S100000x512_S512x16_S100000x16_1_0_0_1_n_n.contr.Idx) : (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
theorem dense1_lhs_inner (i : S100000x16.Idx) (q : dot_S100000x512_S512x16_S100000x16_1_0_0_1_n_n.contr.Idx) : (dot_S100000x512_S512x16_S100000x16_1_0_0_1_n_n.lhsIdx i q 1).val = (q ⟨0, by decide⟩).val :=
  dot_S100000x512_S512x16_S100000x16_1_0_0_1_n_n.lhsIdx_val_of_single rfl i q
theorem dense1_rhs_inner (i : S100000x16.Idx) (q : dot_S100000x512_S512x16_S100000x16_1_0_0_1_n_n.contr.Idx) : (dot_S100000x512_S512x16_S100000x16_1_0_0_1_n_n.rhsIdx i q 0).val = (q ⟨0, by decide⟩).val :=
  dot_S100000x512_S512x16_S100000x16_1_0_0_1_n_n.rhsIdx_val_of_single rfl i q
theorem dense1_rhs_col (i : S100000x16.Idx) (q : dot_S100000x512_S512x16_S100000x16_1_0_0_1_n_n.contr.Idx) : (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl

/-- The host's product at entry `i` is the sum over the 512 inner indices of left (row of `i`, k) times right (k, column of `i`). -/
theorem dense1_eq (x : (⟨S100000x512, .f32⟩ : BufTy).Contents (Elt Ideal)) (w : (⟨S512x16, .f32⟩ : BufTy).Contents (Elt Ideal)) :
    Stages.dense1 (F := Ideal) x w = Cert.KernelIdeal.Dense.prod1 x w := by
  funext i
  unfold Stages.dense1
  simp only [Host.dotGeneral]
  rw [Ideal.dotGeneral_apply, ← Equiv.sum_comp (ValueIdx.contrEquiv1 dot_S100000x512_S512x16_S100000x16_1_0_0_1_n_n 512 rfl rfl).symm]
  refine Finset.sum_congr rfl fun k _ => ?_
  have hk := ValueIdx.contrEquiv1_symm_val dot_S100000x512_S512x16_S100000x16_1_0_0_1_n_n 512 rfl rfl k
  have el : dot_S100000x512_S512x16_S100000x16_1_0_0_1_n_n.lhsIdx i ((ValueIdx.contrEquiv1 dot_S100000x512_S512x16_S100000x16_1_0_0_1_n_n 512 rfl rfl).symm k) = Cert.KernelIdeal.Dense.lix1 i k := funext fun a => Fin.ext (by
    match a with
    | ⟨0, _⟩ => exact dense1_lhs_row _ _
    | ⟨1, _⟩ => exact (dense1_lhs_inner _ _).trans hk)
  have er : dot_S100000x512_S512x16_S100000x16_1_0_0_1_n_n.rhsIdx i ((ValueIdx.contrEquiv1 dot_S100000x512_S512x16_S100000x16_1_0_0_1_n_n 512 rfl rfl).symm k) = Cert.KernelIdeal.Dense.rix1 i k := funext fun a => Fin.ext (by
    match a with
    | ⟨0, _⟩ => exact (dense1_rhs_inner _ _).trans hk
    | ⟨1, _⟩ => exact dense1_rhs_col _ _)
  rw [el, er]

/-! ### The host product `dense2` entry by entry -/

theorem dense2_lhs_row (i : S100000x40.Idx) (q : dot_S100000x16_S16x40_S100000x40_1_0_0_1_n_n.contr.Idx) : (dot_S100000x16_S16x40_S100000x40_1_0_0_1_n_n.lhsIdx i q 0).val = (i 0).val := by
  unfold DotDims.lhsIdx
  rw [dif_neg (show ¬(0 : Fin S100000x16.rank) ∈ dot_S100000x16_S16x40_S100000x40_1_0_0_1_n_n.lhsBatch by decide), dif_pos (show (0 : Fin S100000x16.rank) ∈ dot_S100000x16_S16x40_S100000x40_1_0_0_1_n_n.lhsNonContracting by decide)]
  rfl
theorem dense2_lhs_inner (i : S100000x40.Idx) (q : dot_S100000x16_S16x40_S100000x40_1_0_0_1_n_n.contr.Idx) : (dot_S100000x16_S16x40_S100000x40_1_0_0_1_n_n.lhsIdx i q 1).val = (q ⟨0, by decide⟩).val :=
  dot_S100000x16_S16x40_S100000x40_1_0_0_1_n_n.lhsIdx_val_of_single rfl i q
theorem dense2_rhs_inner (i : S100000x40.Idx) (q : dot_S100000x16_S16x40_S100000x40_1_0_0_1_n_n.contr.Idx) : (dot_S100000x16_S16x40_S100000x40_1_0_0_1_n_n.rhsIdx i q 0).val = (q ⟨0, by decide⟩).val :=
  dot_S100000x16_S16x40_S100000x40_1_0_0_1_n_n.rhsIdx_val_of_single rfl i q
theorem dense2_rhs_col (i : S100000x40.Idx) (q : dot_S100000x16_S16x40_S100000x40_1_0_0_1_n_n.contr.Idx) : (dot_S100000x16_S16x40_S100000x40_1_0_0_1_n_n.rhsIdx i q 1).val = (i 1).val := by
  unfold DotDims.rhsIdx
  rw [dif_neg (show ¬(1 : Fin S16x40.rank) ∈ dot_S100000x16_S16x40_S100000x40_1_0_0_1_n_n.rhsBatch by decide), dif_pos (show (1 : Fin S16x40.rank) ∈ dot_S100000x16_S16x40_S100000x40_1_0_0_1_n_n.rhsNonContracting by decide)]
  rfl

/-- The host's product at entry `i` is the sum over the 16 inner indices of left (row of `i`, k) times right (k, column of `i`). -/
theorem dense2_eq (x : (⟨S100000x16, .f32⟩ : BufTy).Contents (Elt Ideal)) (w : (⟨S16x40, .f32⟩ : BufTy).Contents (Elt Ideal)) :
    Stages.dense2 (F := Ideal) x w = Cert.KernelIdeal.Dense.prod2 x w := by
  funext i
  unfold Stages.dense2
  simp only [Host.dotGeneral]
  rw [Ideal.dotGeneral_apply, ← Equiv.sum_comp (ValueIdx.contrEquiv1 dot_S100000x16_S16x40_S100000x40_1_0_0_1_n_n 16 rfl rfl).symm]
  refine Finset.sum_congr rfl fun k _ => ?_
  have hk := ValueIdx.contrEquiv1_symm_val dot_S100000x16_S16x40_S100000x40_1_0_0_1_n_n 16 rfl rfl k
  have el : dot_S100000x16_S16x40_S100000x40_1_0_0_1_n_n.lhsIdx i ((ValueIdx.contrEquiv1 dot_S100000x16_S16x40_S100000x40_1_0_0_1_n_n 16 rfl rfl).symm k) = Cert.KernelIdeal.Dense.lix2 i k := funext fun a => Fin.ext (by
    match a with
    | ⟨0, _⟩ => exact dense2_lhs_row _ _
    | ⟨1, _⟩ => exact (dense2_lhs_inner _ _).trans hk)
  have er : dot_S100000x16_S16x40_S100000x40_1_0_0_1_n_n.rhsIdx i ((ValueIdx.contrEquiv1 dot_S100000x16_S16x40_S100000x40_1_0_0_1_n_n 16 rfl rfl).symm k) = Cert.KernelIdeal.Dense.rix2 i k := funext fun a => Fin.ext (by
    match a with
    | ⟨0, _⟩ => exact (dense2_rhs_inner _ _).trans hk
    | ⟨1, _⟩ => exact dense2_rhs_col _ _)
  rw [el, er]

/-! ### The network -/

/-- The reference's network is the tiled program's result: the log-softmax region's function of the edge sum of the
    second dense product of the hidden layer, itself the stage function of the first dense product. -/
theorem network_eq (x : (⟨S100000x512, .f32⟩ : BufTy).Contents (Elt Ideal)) (e : (⟨S2x3200000, .i32⟩ : BufTy).Contents (Elt Ideal))
    (w1 : (⟨S512x16, .f32⟩ : BufTy).Contents (Elt Ideal)) (b1 : (⟨S16, .f32⟩ : BufTy).Contents (Elt Ideal))
    (w2 : (⟨S16x40, .f32⟩ : BufTy).Contents (Elt Ideal)) (b2 : (⟨S40, .f32⟩ : BufTy).Contents (Elt Ideal)) :
    Stages.network (F := Ideal) x e w1 b1 w2 b2
      = Cert.KernelIdeal.Softmax.logSoftmaxBiased
          (Stages.edgeSum40
            (Cert.KernelIdeal.Dense.prod2
              (Stages.hiddenOf (Cert.KernelIdeal.Dense.prod1 x w1) (Stages.src e) (Stages.dst e) (Stages.weightColumn e) b1) w2)
            (Stages.src e) (Stages.dst e) (Stages.weightColumn e))
          b2 := by
  unfold Stages.network
  rw [Cert.ReferenceIdeal.SoftmaxTail.reference_eq, Stages.aggregate40_eq, dense2_eq, Stages.hidden_eq, dense1_eq]

end Cert.ReferenceIdeal.Bridge

end
-- ==== Proof.lean ====
/-
  The tiled two-layer graph convolution with a log-softmax head computes what its plain reference computes.

  On 100000 nodes, 512 input features, 16 hidden features and 40 classes, with Â = D^{-1/2} (A + I) D^{-1/2} the
  normalised adjacency of the edge list (self-loops added, D the in-degree), both programs compute
      logSoftmax ( Â · relu( Â · (x · W1) + b1 ) · W2  +  b2 )
  row by row. The tiled program does the two dense products and the bias-plus-log-softmax on the accelerator, 4000 or
  10000 rows at a time, and everything that follows the edges — degrees, weights, the two gather-scale-scatter
  aggregations — on the host with the very operations of the reference, computing the edge arrays once where the
  reference computes them once per layer.

  Over the extended reals the two results are one function of the six arguments, for every input (no finiteness is
  used): a tile of a matrix product holds, for its rows, the same sums over the inner index as the whole product
  (DenseRegion0, DenseRegion1, and Bridge for the host's product); the log-softmax of a block's rows is the log-softmax of
  those rows of the array, a row maximum started at −∞ being the row's maximum and unchanged by one more comparison
  with −∞ (SoftmaxRegion, SoftmaxReference); every other stage is the same host operation applied to equal arrays
  (RefStages, EdgeStages, KernelHost). KernelValue walks the tiled program's segment boundaries back to the arguments;
  RefValue reads the reference's line of operations back; Bridge equates the two compositions.

  The three frame claims: the two printings of the tiled program by their frame certificates, the reference by its run
  with the result forgotten. The idealized tiled program is the tiled program's own text read over the extended reals
  (no rewrite was applied), so nothing is owed for `preserves`.
-/
import proofs.«141435_j27247272526424_1_alg».proof.Defs
import proofs.«141435_j27247272526424_1_alg».proof.Proof.Gen.Kernel
import proofs.«141435_j27247272526424_1_alg».proof.Proof.Gen.Kernel.Skeleton
import proofs.«141435_j27247272526424_1_alg».proof.Proof.Gen.Kernel.Launch
import proofs.«141435_j27247272526424_1_alg».proof.Proof.Gen.Kernel.Points
import proofs.«141435_j27247272526424_1_alg».proof.Proof.Gen.Kernel.Frame
import proofs.«141435_j27247272526424_1_alg».proof.Proof.Gen.KernelIdeal
import proofs.«141435_j27247272526424_1_alg».proof.Proof.Gen.KernelIdeal.Skeleton
import proofs.«141435_j27247272526424_1_alg».proof.Proof.Gen.KernelIdeal.Launch
import proofs.«141435_j27247272526424_1_alg».proof.Proof.Gen.KernelIdeal.Points
import proofs.«141435_j27247272526424_1_alg».proof.Proof.Gen.KernelIdeal.Frame
import proofs.«141435_j27247272526424_1_alg».proof.Proof.Gen.ReferenceIdeal
import proofs.«141435_j27247272526424_1_alg».proof.Proof.Gen.Pre_finite_inputs
import proofs.«141435_j27247272526424_1_alg».proof.Proof.KernelRun
import proofs.«141435_j27247272526424_1_alg».proof.Proof.KernelValue
import proofs.«141435_j27247272526424_1_alg».proof.Proof.RefValue
import proofs.«141435_j27247272526424_1_alg».proof.Proof.Bridge
import Idealize.ShloMosaic.Adequacy
import Idealize.ShloMosaic.Init

noncomputable section

namespace Cert.Proof

open Idealize.ShloMosaic Idealize.SL.Sem

/-- The word-level tiled program runs, nothing faulting, and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- No operation was rewritten: the idealization is the program's own text. -/
theorem preserves : Cert.preserves_Kernel_KernelIdeal := trivial

/-- From memories that agree on the six arguments both programs run, leave the arguments alone, and end with the same
    result: the tiled program's result buffer at the composition KernelValue reads off its boundaries, the reference's
    at its network of stages, which Bridge shows to be that composition at the same arguments. -/
theorem algebraic : Cert.algebraic_KernelIdeal_ReferenceIdeal := by
  intro m ρ m' ρ' _ hagree
  refine ⟨_, (θ_run Cert.KernelIdeal.defs _ _).mono (fun _ h c => ⟨(h c).1.trans (Cert.KernelIdeal.Final.result_at m ρ c), (h c).2⟩)
    (Cert.KernelIdeal.Result.run_result (F := Ideal) m ρ), ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]
  exact Cert.ReferenceIdeal.Bridge.network_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
